-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S1000000x32 : Shape := ⟨2, ![1000000, 32]⟩
abbrev S1000000x27 : Shape := ⟨2, ![1000000, 27]⟩
abbrev S_ : Shape := ⟨0, ![]⟩
abbrev S192x64 : Shape := ⟨2, ![192, 64]⟩
abbrev S64 : Shape := ⟨1, ![64]⟩
abbrev S32x64 : Shape := ⟨2, ![32, 64]⟩
abbrev S27x27 : Shape := ⟨2, ![27, 27]⟩
abbrev S27 : Shape := ⟨1, ![27]⟩
abbrev S27x64 : Shape := ⟨2, ![27, 64]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S1000000x32 : S_.BroadcastsInDim S1000000x32 (![] : Fin 0 → Fin S1000000x32.rank)
  reducesTo_S1000000x32_S_d0_1 : S1000000x32.ReducesTo [0, 1] S_
  bcast_S_S1000000x27 : S_.BroadcastsInDim S1000000x27 (![] : Fin 0 → Fin S1000000x27.rank)
  reducesTo_S1000000x27_S_d0_1 : S1000000x27.ReducesTo [0, 1] S_
  reducesTo_S_S_d : S_.ReducesTo [] S_
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S27x27 : S_.BroadcastsInDim S27x27 (![] : Fin 0 → Fin S27x27.rank)
  reducesTo_S27x27_S_d0_1 : S27x27.ReducesTo [0, 1] S_
  bcast_S_S27 : S_.BroadcastsInDim S27 (![] : Fin 0 → Fin S27.rank)
  reducesTo_S27_S_d0 : S27.ReducesTo [0] S_
  bcast_S_S27x64 : S_.BroadcastsInDim S27x64 (![] : Fin 0 → Fin S27x64.rank)
  reducesTo_S27x64_S_d0_1 : S27x64.ReducesTo [0, 1] S_

variable [Facts]

def fn_part4 {F : FTy → Type} [FloatOps F] (main_arg16 : FVec F S64 .f32) (main_v67 : IVec S_ 1) : IVec S_ 1 :=
  let main_v68 : FVec F S64 .f32 := Host.absf main_arg16
  let main_cst_26 : FVec F S_ .f32 := constant S_ .f32 0x7F800000#32
  let main_v69 : FVec F S64 .f32 := broadcastInDim S64 ![] bcast_S_S64 main_cst_26
  let main_v70 : IVec S64 1 := cmpf .olt main_v68 main_v69
  let main_c_27 : IVec S_ 1 := constantI S_ 1 1#1
  let main_v71 : IVec S_ 1 := (fun x v => Host.reduce IntOp.andi x v reducesTo_S64_S_d0 h_S_) main_v70 main_c_27
  let main_v72 : IVec S_ 1 := andi main_v67 main_v71
  main_v72

def fn_part3 {F : FTy → Type} [FloatOps F] (main_arg13 : FVec F S27x27 .f32) (main_arg14 : FVec F S27 .f32) (main_arg15 : FVec F S27x64 .f32) (main_arg16 : FVec F S64 .f32) (main_v47 : IVec S_ 1) (main_v50 : IVec S64 1) : IVec S_ 1 :=
  let main_c_19 : IVec S_ 1 := constantI S_ 1 1#1
  let main_v51 : IVec S_ 1 := (fun x v => Host.reduce IntOp.andi x v reducesTo_S64_S_d0 h_S_) main_v50 main_c_19
  let main_v52 : IVec S_ 1 := andi main_v47 main_v51
  let main_v53 : FVec F S27x27 .f32 := Host.absf main_arg13
  let main_cst_20 : FVec F S_ .f32 := constant S_ .f32 0x7F800000#32
  let main_v54 : FVec F S27x27 .f32 := broadcastInDim S27x27 ![] bcast_S_S27x27 main_cst_20
  let main_v55 : IVec S27x27 1 := cmpf .olt main_v53 main_v54
  let main_c_21 : IVec S_ 1 := constantI S_ 1 1#1
  let main_v56 : IVec S_ 1 := (fun x v => Host.reduce IntOp.andi x v reducesTo_S27x27_S_d0_1 h_S_) main_v55 main_c_21
  let main_v57 : IVec S_ 1 := andi main_v52 main_v56
  let main_v58 : FVec F S27 .f32 := Host.absf main_arg14
  let main_cst_22 : FVec F S_ .f32 := constant S_ .f32 0x7F800000#32
  let main_v59 : FVec F S27 .f32 := broadcastInDim S27 ![] bcast_S_S27 main_cst_22
  let main_v60 : IVec S27 1 := cmpf .olt main_v58 main_v59
  let main_c_23 : IVec S_ 1 := constantI S_ 1 1#1
  let main_v61 : IVec S_ 1 := (fun x v => Host.reduce IntOp.andi x v reducesTo_S27_S_d0 h_S_) main_v60 main_c_23
  let main_v62 : IVec S_ 1 := andi main_v57 main_v61
  let main_v63 : FVec F S27x64 .f32 := Host.absf main_arg15
  let main_cst_24 : FVec F S_ .f32 := constant S_ .f32 0x7F800000#32
  let main_v64 : FVec F S27x64 .f32 := broadcastInDim S27x64 ![] bcast_S_S27x64 main_cst_24
  let main_v65 : IVec S27x64 1 := cmpf .olt main_v63 main_v64
  let main_c_25 : IVec S_ 1 := constantI S_ 1 1#1
  let main_v66 : IVec S_ 1 := (fun x v => Host.reduce IntOp.andi x v reducesTo_S27x64_S_d0_1 h_S_) main_v65 main_c_25
  let main_v67 : IVec S_ 1 := andi main_v62 main_v66
  fn_part4 (F := F) main_arg16 main_v67

def fn_part2 {F : FTy → Type} [FloatOps F] (main_arg10 : FVec F S64 .f32) (main_arg11 : FVec F S32x64 .f32) (main_arg12 : FVec F S64 .f32) (main_arg13 : FVec F S27x27 .f32) (main_arg14 : FVec F S27 .f32) (main_arg15 : FVec F S27x64 .f32) (main_arg16 : FVec F S64 .f32) (main_v32 : IVec S_ 1) (main_v33 : FVec F S192x64 .f32) : IVec S_ 1 :=
  let main_cst_12 : FVec F S_ .f32 := constant S_ .f32 0x7F800000#32
  let main_v34 : FVec F S192x64 .f32 := broadcastInDim S192x64 ![] bcast_S_S192x64 main_cst_12
  let main_v35 : IVec S192x64 1 := cmpf .olt main_v33 main_v34
  let main_c_13 : IVec S_ 1 := constantI S_ 1 1#1
  let main_v36 : IVec S_ 1 := (fun x v => Host.reduce IntOp.andi x v reducesTo_S192x64_S_d0_1 h_S_) main_v35 main_c_13
  let main_v37 : IVec S_ 1 := andi main_v32 main_v36
  let main_v38 : FVec F S64 .f32 := Host.absf main_arg10
  let main_cst_14 : FVec F S_ .f32 := constant S_ .f32 0x7F800000#32
  let main_v39 : FVec F S64 .f32 := broadcastInDim S64 ![] bcast_S_S64 main_cst_14
  let main_v40 : IVec S64 1 := cmpf .olt main_v38 main_v39
  let main_c_15 : IVec S_ 1 := constantI S_ 1 1#1
  let main_v41 : IVec S_ 1 := (fun x v => Host.reduce IntOp.andi x v reducesTo_S64_S_d0 h_S_) main_v40 main_c_15
  let main_v42 : IVec S_ 1 := andi main_v37 main_v41
  let main_v43 : FVec F S32x64 .f32 := Host.absf main_arg11
  let main_cst_16 : FVec F S_ .f32 := constant S_ .f32 0x7F800000#32
  let main_v44 : FVec F S32x64 .f32 := broadcastInDim S32x64 ![] bcast_S_S32x64 main_cst_16
  let main_v45 : IVec S32x64 1 := cmpf .olt main_v43 main_v44
  let main_c_17 : IVec S_ 1 := constantI S_ 1 1#1
  let main_v46 : IVec S_ 1 := (fun x v => Host.reduce IntOp.andi x v reducesTo_S32x64_S_d0_1 h_S_) main_v45 main_c_17
  let main_v47 : IVec S_ 1 := andi main_v42 main_v46
  let main_v48 : FVec F S64 .f32 := Host.absf main_arg12
  let main_cst_18 : FVec F S_ .f32 := constant S_ .f32 0x7F800000#32
  let main_v49 : FVec F S64 .f32 := broadcastInDim S64 ![] bcast_S_S64 main_cst_18
  let main_v50 : IVec S64 1 := cmpf .olt main_v48 main_v49
  fn_part3 (F := F) main_arg13 main_arg14 main_arg15 main_arg16 main_v47 main_v50

def fn_part1 {F : FTy → Type} [FloatOps F] (main_arg6 : FVec F S_ .f32) (main_arg7 : FVec F S192x64 .f32) (main_arg8 : FVec F S64 .f32) (main_arg9 : FVec F S192x64 .f32) (main_arg10 : FVec F S64 .f32) (main_arg11 : FVec F S32x64 .f32) (main_arg12 : FVec F S64 .f32) (main_arg13 : FVec F S27x27 .f32) (main_arg14 : FVec F S27 .f32) (main_arg15 : FVec F S27x64 .f32) (main_arg16 : FVec F S64 .f32) (main_v13 : IVec S_ 1) (main_v16 : IVec S1000000x27 1) : IVec S_ 1 :=
  let main_c_5 : IVec S_ 1 := constantI S_ 1 1#1
  let main_v17 : IVec S_ 1 := (fun x v => Host.reduce IntOp.andi x v reducesTo_S1000000x27_S_d0_1 h_S_) main_v16 main_c_5
  let main_v18 : IVec S_ 1 := andi main_v13 main_v17
  let main_v19 : FVec F S_ .f32 := Host.absf main_arg6
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S192x64 .f32 := Host.absf main_arg7
  let main_cst_8 : FVec F S_ .f32 := constant S_ .f32 0x7F800000#32
  let main_v24 : FVec F S192x64 .f32 := broadcastInDim S192x64 ![] bcast_S_S192x64 main_cst_8
  let main_v25 : IVec S192x64 1 := cmpf .olt main_v23 main_v24
  let main_c_9 : IVec S_ 1 := constantI S_ 1 1#1
  let main_v26 : IVec S_ 1 := (fun x v => Host.reduce IntOp.andi x v reducesTo_S192x64_S_d0_1 h_S_) main_v25 main_c_9
  let main_v27 : IVec S_ 1 := andi main_v22 main_v26
  let main_v28 : FVec F S64 .f32 := Host.absf main_arg8
  let main_cst_10 : FVec F S_ .f32 := constant S_ .f32 0x7F800000#32
  let main_v29 : FVec F S64 .f32 := broadcastInDim S64 ![] bcast_S_S64 main_cst_10
  let main_v30 : IVec S64 1 := cmpf .olt main_v28 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v27 main_v31
  let main_v33 : FVec F S192x64 .f32 := Host.absf main_arg9
  fn_part2 (F := F) main_arg10 main_arg11 main_arg12 main_arg13 main_arg14 main_arg15 main_arg16 main_v32 main_v33

def fn {F : FTy → Type} [FloatOps F] (main_arg0 : FVec F S100000x64 .f32) (main_arg1 : IVec S1000000 32) (main_arg2 : IVec S1000000 32) (main_arg3 : FVec F S1000000 .f32) (main_arg4 : FVec F S1000000x32 .f32) (main_arg5 : FVec F S1000000x27 .f32) (main_arg6 : FVec F S_ .f32) (main_arg7 : FVec F S192x64 .f32) (main_arg8 : FVec F S64 .f32) (main_arg9 : FVec F S192x64 .f32) (main_arg10 : FVec F S64 .f32) (main_arg11 : FVec F S32x64 .f32) (main_arg12 : FVec F S64 .f32) (main_arg13 : FVec F S27x27 .f32) (main_arg14 : FVec F S27 .f32) (main_arg15 : FVec F S27x64 .f32) (main_arg16 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg3
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1000000x32 .f32 := Host.absf main_arg4
  let main_cst_2 : FVec F S_ .f32 := constant S_ .f32 0x7F800000#32
  let main_v10 : FVec F S1000000x32 .f32 := broadcastInDim S1000000x32 ![] bcast_S_S1000000x32 main_cst_2
  let main_v11 : IVec S1000000x32 1 := cmpf .olt main_v9 main_v10
  let main_c_3 : IVec S_ 1 := constantI S_ 1 1#1
  let main_v12 : IVec S_ 1 := (fun x v => Host.reduce IntOp.andi x v reducesTo_S1000000x32_S_d0_1 h_S_) main_v11 main_c_3
  let main_v13 : IVec S_ 1 := andi main_v8 main_v12
  let main_v14 : FVec F S1000000x27 .f32 := Host.absf main_arg5
  let main_cst_4 : FVec F S_ .f32 := constant S_ .f32 0x7F800000#32
  let main_v15 : FVec F S1000000x27 .f32 := broadcastInDim S1000000x27 ![] bcast_S_S1000000x27 main_cst_4
  let main_v16 : IVec S1000000x27 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S1000000 : Shape := ⟨1, ![1000000]⟩
abbrev S1000000x32 : Shape := ⟨2, ![1000000, 32]⟩
abbrev S1000000x27 : Shape := ⟨2, ![1000000, 27]⟩
abbrev S_ : Shape := ⟨0, ![]⟩
abbrev S192x64 : Shape := ⟨2, ![192, 64]⟩
abbrev S64 : Shape := ⟨1, ![64]⟩
abbrev S32x64 : Shape := ⟨2, ![32, 64]⟩
abbrev S27x27 : Shape := ⟨2, ![27, 27]⟩
abbrev S27 : Shape := ⟨1, ![27]⟩
abbrev S27x64 : Shape := ⟨2, ![27, 64]⟩
abbrev S1000000x1 : Shape := ⟨2, ![1000000, 1]⟩
abbrev S1000000x64 : Shape := ⟨2, ![1000000, 64]⟩
abbrev S64x64 : Shape := ⟨2, ![64, 64]⟩
abbrev S1x64 : Shape := ⟨2, ![1, 64]⟩
abbrev S1x27 : Shape := ⟨2, ![1, 27]⟩
abbrev S2000x64 : Shape := ⟨2, ![2000, 64]⟩
abbrev S2000x1 : Shape := ⟨2, ![2000, 1]⟩
abbrev S2000x32 : Shape := ⟨2, ![2000, 32]⟩
abbrev S2000x27 : Shape := ⟨2, ![2000, 27]⟩

abbrev nBuf : Space → Nat
  | .hbm => 60
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S1000000, .f32⟩
  | .hbm, ⟨4, _⟩ => ⟨S1000000x32, .f32⟩
  | .hbm, ⟨5, _⟩ => ⟨S1000000x27, .f32⟩
  | .hbm, ⟨6, _⟩ => ⟨S_, .f32⟩
  | .hbm, ⟨7, _⟩ => ⟨S192x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S32x64, .f32⟩
  | .hbm, ⟨12, _⟩ => ⟨S64, .f32⟩
  | .hbm, ⟨13, _⟩ => ⟨S27x27, .f32⟩
  | .hbm, ⟨14, _⟩ => ⟨S27, .f32⟩
  | .hbm, ⟨15, _⟩ => ⟨S27x64, .f32⟩
  | .hbm, ⟨16, _⟩ => ⟨S64, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x64, .f32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S_, .i32⟩
  | .hbm, ⟨30, _⟩ => ⟨S1000000, .i32⟩
  | .hbm, ⟨31, _⟩ => ⟨S1000000, .i32⟩
  | .hbm, ⟨32, _⟩ => ⟨S1000000, .i32⟩
  | .hbm, ⟨33, _⟩ => ⟨S1000000x1, .i32⟩
  | .hbm, ⟨34, _⟩ => ⟨S1000000x64, .f32⟩
  | .hbm, ⟨35, _⟩ => ⟨S1000000x1, .f32⟩
  | .hbm, ⟨36, _⟩ => ⟨S1000000x1, .f32⟩
  | .hbm, ⟨37, _⟩ => ⟨S1000000x1, .i1⟩
  | .hbm, ⟨38, _⟩ => ⟨S1000000x1, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S1x27, .f32⟩
  | .hbm, ⟨49, _⟩ => ⟨S1x64, .f32⟩
  | .hbm, ⟨50, _⟩ => ⟨S1000000x64, .f32⟩
  | .hbm, ⟨51, _⟩ => ⟨S_, .i32⟩
  | .hbm, ⟨52, _⟩ => ⟨S1000000, .i32⟩
  | .hbm, ⟨53, _⟩ => ⟨S1000000, .i1⟩
  | .hbm, ⟨54, _⟩ => ⟨S_, .i32⟩
  | .hbm, ⟨55, _⟩ => ⟨S1000000, .i32⟩
  | .hbm, ⟨56, _⟩ => ⟨S1000000, .i32⟩
  | .hbm, ⟨57, _⟩ => ⟨S1000000, .i32⟩
  | .hbm, ⟨58, _⟩ => ⟨S1000000x1, .i32⟩
  | .hbm, ⟨59, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x1, .f32⟩
  | .local _ .vmem, ⟨5, _⟩ => ⟨S2000x1, .f32⟩
  | .local _ .vmem, ⟨6, _⟩ => ⟨S2000x1, .f32⟩
  | .local _ .vmem, ⟨7, _⟩ => ⟨S2000x1, .f32⟩
  | .local _ .vmem, ⟨8, _⟩ => ⟨S2000x32, .f32⟩
  | .local _ .vmem, ⟨9, _⟩ => ⟨S2000x32, .f32⟩
  | .local _ .vmem, ⟨10, _⟩ => ⟨S2000x27, .f32⟩
  | .local _ .vmem, ⟨11, _⟩ => ⟨S2000x27, .f32⟩
  | .local _ .vmem, ⟨12, _⟩ => ⟨S64x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S32x64, .f32⟩
  | .local _ .vmem, ⟨21, _⟩ => ⟨S1x64, .f32⟩
  | .local _ .vmem, ⟨22, _⟩ => ⟨S27x27, .f32⟩
  | .local _ .vmem, ⟨23, _⟩ => ⟨S1x27, .f32⟩
  | .local _ .vmem, ⟨24, _⟩ => ⟨S27x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_3 : Ref sig .tc := ⟨.hbm, 51, rfl⟩
abbrev main_v30 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg20_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem20_1 : DmaSem sig := 27

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x27 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S27x27 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x27 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S27x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S2000x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S1000000_S1000000x1 : S1000000.ShapeCasts S1000000x1
  bcast_S_S1000000x1 : S_.BroadcastsInDim S1000000x1 (![] : Fin 0 → Fin S1000000x1.rank)
  slices_S192x64_S64x64_0_0 : S192x64.Slices ![0, 0] S64x64
  slices_S192x64_S64x64_64_0 : S192x64.Slices ![64, 0] S64x64
  slices_S192x64_S64x64_128_0 : S192x64.Slices ![128, 0] S64x64
  shapeCasts_S64_S1x64 : S64.ShapeCasts S1x64
  shapeCasts_S27_S1x27 : S27.ShapeCasts S1x27
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x32_S2000x32_0_0 : ∀ a, (![0, 0] : Fin 2 → Nat) a + S2000x32.size a ≤ S2000x32.size a
  h_S2000x32 : 0 < S2000x32.numel
  inb_S2000x27_S2000x27_0_0 : ∀ a, (![0, 0] : Fin 2 → Nat) a + S2000x27.size a ≤ S2000x27.size a
  h_S2000x27 : 0 < S2000x27.numel
  broadcasts_S2000x1_S2000x64 : S2000x1.Broadcasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S32x64_S32x64_0_0 : ∀ a, (![0, 0] : Fin 2 → Nat) a + S32x64.size a ≤ S32x64.size a
  h_S32x64 : 0 < S32x64.numel
  inb_S27x27_S27x27_0_0 : ∀ a, (![0, 0] : Fin 2 → Nat) a + S27x27.size a ≤ S27x27.size a
  h_S27x27 : 0 < S27x27.numel
  inb_S1x27_S1x27_0_0 : ∀ a, (![0, 0] : Fin 2 → Nat) a + S1x27.size a ≤ S1x27.size a
  h_S1x27 : 0 < S1x27.numel
  shapeCasts_S1x27_S1x27 : S1x27.ShapeCasts S1x27
  broadcasts_S1x27_S2000x27 : S1x27.Broadcasts S2000x27
  inb_S27x64_S27x64_0_0 : ∀ a, (![0, 0] : Fin 2 → Nat) a + S27x64.size a ≤ S27x64.size a
  h_S27x64 : 0 < S27x64.numel
  gather_S100000x64_S1000000x1_S1000000x64_1_0_n_n_0_1_164_wf : GatherDims.WF S100000x64 S1000000x1 S1000000x64 [1] [0] [] [0] [] 1 ![1, 64]
  dot_S2000x64_S64x64_S2000x64_1_0_0_1_n_n_wf : DotDims.WF S2000x64 S64x64 S2000x64 [1] [0] [0] [1] [] []
  dot_S2000x32_S32x64_S2000x64_1_0_0_1_n_n_wf : DotDims.WF S2000x32 S32x64 S2000x64 [1] [0] [0] [1] [] []
  dot_S2000x27_S27x27_S2000x27_1_0_0_1_n_n_wf : DotDims.WF S2000x27 S27x27 S2000x27 [1] [0] [0] [1] [] []
  dot_S2000x27_S27x64_S2000x64_1_0_0_1_n_n_wf : DotDims.WF S2000x27 S27x64 S2000x64 [1] [0] [0] [1] [] []
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S1000000x64.size a
  hwx0_0 : ∀ i : grid0.Coords, EltTy.bits .f32 = 32 ∨ (Rect.block (s := S1000000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S1000000x64.size a
  hwx0_1 : ∀ i : grid0.Coords, EltTy.bits .f32 = 32 ∨ (Rect.block (s := S1000000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S1000000x1.size a
  hwx0_2 : ∀ i : grid0.Coords, EltTy.bits .f32 = 32 ∨ (Rect.block (s := S1000000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S1000000x1.size a
  hwx0_3 : ∀ i : grid0.Coords, EltTy.bits .f32 = 32 ∨ (Rect.block (s := S1000000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x32.size a ≤ S1000000x32.size a
  hwx0_4 : ∀ i : grid0.Coords, EltTy.bits .f32 = 32 ∨ (Rect.block (s := S1000000x32) S2000x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x27.size a ≤ S1000000x27.size a
  hwx0_5 : ∀ i : grid0.Coords, EltTy.bits .f32 = 32 ∨ (Rect.block (s := S1000000x27) S2000x27.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x64.size a ≤ S64x64.size a
  hwx0_12 : ∀ i : grid0.Coords, EltTy.bits .f32 = 32 ∨ (Rect.block (s := S64x64) S64x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S32x64.size a ≤ S32x64.size a
  hwx0_14 : ∀ i : grid0.Coords, EltTy.bits .f32 = 32 ∨ (Rect.block (s := S32x64) S32x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S27x27.size a ≤ S27x27.size a
  hwx0_16 : ∀ i : grid0.Coords, EltTy.bits .f32 = 32 ∨ (Rect.block (s := S27x27) S27x27.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x27.size a ≤ S1x27.size a
  hwx0_17 : ∀ i : grid0.Coords, EltTy.bits .f32 = 32 ∨ (Rect.block (s := S1x27) S1x27.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S27x64.size a ≤ S27x64.size a
  hwx0_18 : ∀ i : grid0.Coords, EltTy.bits .f32 = 32 ∨ (Rect.block (s := S27x64) S27x64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x64.size a ≤ S1x64.size a
  hwx0_19 : ∀ i : grid0.Coords, EltTy.bits .f32 = 32 ∨ (Rect.block (s := S1x64) S1x64.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S2000x64.size a ≤ S1000000x64.size a
  hwx0_20 : ∀ i : grid0.Coords, EltTy.bits .f32 = 32 ∨ (Rect.block (s := S1000000x64) S2000x64.size (cc0_transform_20 i) (hinb0_20 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S2000x27_S27x27_S2000x27_1_0_0_1_n_n : DotDims S2000x27 S27x27 S2000x27 where
  lhsContracting := [1]
  rhsContracting := [0]
  lhsNonContracting := [0]
  rhsNonContracting := [1]
  lhsBatch := []
  rhsBatch := []
  wf := dot_S2000x27_S27x27_S2000x27_1_0_0_1_n_n_wf
def dot_S2000x27_S27x64_S2000x64_1_0_0_1_n_n : DotDims S2000x27 S27x64 S2000x64 where
  lhsContracting := [1]
  rhsContracting := [0]
  lhsNonContracting := [0]
  rhsNonContracting := [1]
  lhsBatch := []
  rhsBatch := []
  wf := dot_S2000x27_S27x64_S2000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_v6) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2000x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2000x27.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v22) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v23) S64x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v25) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg11) S32x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v26) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg13) S27x27.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v27) S1x27.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg15) S27x64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v28) S1x64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v29) S2000x64.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000 : Shape := ⟨1, ![1000000]⟩
abbrev S1000000x32 : Shape := ⟨2, ![1000000, 32]⟩
abbrev S1000000x27 : Shape := ⟨2, ![1000000, 27]⟩
abbrev S_ : Shape := ⟨0, ![]⟩
abbrev S192x64 : Shape := ⟨2, ![192, 64]⟩
abbrev S64 : Shape := ⟨1, ![64]⟩
abbrev S32x64 : Shape := ⟨2, ![32, 64]⟩
abbrev S27x27 : Shape := ⟨2, ![27, 27]⟩
abbrev S27 : Shape := ⟨1, ![27]⟩
abbrev S27x64 : Shape := ⟨2, ![27, 64]⟩
abbrev S1000000x1 : Shape := ⟨2, ![1000000, 1]⟩
abbrev S1000000x64 : Shape := ⟨2, ![1000000, 64]⟩
abbrev S1000000x192 : Shape := ⟨2, ![1000000, 192]⟩
abbrev S1x64 : Shape := ⟨2, ![1, 64]⟩
abbrev S1x27 : Shape := ⟨2, ![1, 27]⟩

abbrev nBuf : Space → Nat
  | .hbm => 108
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S1000000, .f32⟩
  | .hbm, ⟨4, _⟩ => ⟨S1000000x32, .f32⟩
  | .hbm, ⟨5, _⟩ => ⟨S1000000x27, .f32⟩
  | .hbm, ⟨6, _⟩ => ⟨S_, .f32⟩
  | .hbm, ⟨7, _⟩ => ⟨S192x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S32x64, .f32⟩
  | .hbm, ⟨12, _⟩ => ⟨S64, .f32⟩
  | .hbm, ⟨13, _⟩ => ⟨S27x27, .f32⟩
  | .hbm, ⟨14, _⟩ => ⟨S27, .f32⟩
  | .hbm, ⟨15, _⟩ => ⟨S27x64, .f32⟩
  | .hbm, ⟨16, _⟩ => ⟨S64, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x64, .f32⟩
  | .hbm, ⟨26, _⟩ => ⟨S_, .i32⟩
  | .hbm, ⟨27, _⟩ => ⟨S1000000, .i32⟩
  | .hbm, ⟨28, _⟩ => ⟨S1000000, .i1⟩
  | .hbm, ⟨29, _⟩ => ⟨S_, .i32⟩
  | .hbm, ⟨30, _⟩ => ⟨S1000000, .i32⟩
  | .hbm, ⟨31, _⟩ => ⟨S1000000, .i32⟩
  | .hbm, ⟨32, _⟩ => ⟨S1000000, .i32⟩
  | .hbm, ⟨33, _⟩ => ⟨S1000000x1, .i32⟩
  | .hbm, ⟨34, _⟩ => ⟨S1000000x64, .f32⟩
  | .hbm, ⟨35, _⟩ => ⟨S1000000x1, .f32⟩
  | .hbm, ⟨36, _⟩ => ⟨S1000000x1, .f32⟩
  | .hbm, ⟨37, _⟩ => ⟨S1000000x1, .i1⟩
  | .hbm, ⟨38, _⟩ => ⟨S1000000x1, .f32⟩
  | .hbm, ⟨39, _⟩ => ⟨S1000000x64, .f32⟩
  | .hbm, ⟨40, _⟩ => ⟨S1000000x64, .f32⟩
  | .hbm, ⟨41, _⟩ => ⟨S1000000x64, .f32⟩
  | .hbm, ⟨42, _⟩ => ⟨S1000000x192, .f32⟩
  | .hbm, ⟨43, _⟩ => ⟨S1000000x64, .f32⟩
  | .hbm, ⟨44, _⟩ => ⟨S1x64, .f32⟩
  | .hbm, ⟨45, _⟩ => ⟨S1000000x64, .f32⟩
  | .hbm, ⟨46, _⟩ => ⟨S1000000x64, .f32⟩
  | .hbm, ⟨47, _⟩ => ⟨S1000000x64, .f32⟩
  | .hbm, ⟨48, _⟩ => ⟨S1000000x64, .f32⟩
  | .hbm, ⟨49, _⟩ => ⟨S_, .f32⟩
  | .hbm, ⟨50, _⟩ => ⟨S1000000x64, .f32⟩
  | .hbm, ⟨51, _⟩ => ⟨S1000000x64, .f32⟩
  | .hbm, ⟨52, _⟩ => ⟨S_, .f32⟩
  | .hbm, ⟨53, _⟩ => ⟨S1000000x64, .f32⟩
  | .hbm, ⟨54, _⟩ => ⟨S1000000x64, .f32⟩
  | .hbm, ⟨55, _⟩ => ⟨S1000000x64, .f32⟩
  | .hbm, ⟨56, _⟩ => ⟨S1x64, .f32⟩
  | .hbm, ⟨57, _⟩ => ⟨S1000000x64, .f32⟩
  | .hbm, ⟨58, _⟩ => ⟨S1000000x64, .f32⟩
  | .hbm, ⟨59, _⟩ => ⟨S_, .f32⟩
  | .hbm, ⟨60, _⟩ => ⟨S1000000x64, .f32⟩
  | .hbm, ⟨61, _⟩ => ⟨S1000000x64, .f32⟩
  | .hbm, ⟨62, _⟩ => ⟨S1000000x64, .f32⟩
  | .hbm, ⟨63, _⟩ => ⟨S1000000x64, .f32⟩
  | .hbm, ⟨64, _⟩ => ⟨S1000000x64, .i1⟩
  | .hbm, ⟨65, _⟩ => ⟨S1000000x64, .f32⟩
  | .hbm, ⟨66, _⟩ => ⟨S1000000x64, .f32⟩
  | .hbm, ⟨67, _⟩ => ⟨S1000000x64, .f32⟩
  | .hbm, ⟨68, _⟩ => ⟨S1000000x64, .f32⟩
  | .hbm, ⟨69, _⟩ => ⟨S1000000x64, .f32⟩
  | .hbm, ⟨70, _⟩ => ⟨S1000000x64, .f32⟩
  | .hbm, ⟨71, _⟩ => ⟨S1000000x64, .f32⟩
  | .hbm, ⟨72, _⟩ => ⟨S1000000x64, .f32⟩
  | .hbm, ⟨73, _⟩ => ⟨S1000000x64, .f32⟩
  | .hbm, ⟨74, _⟩ => ⟨S1x64, .f32⟩
  | .hbm, ⟨75, _⟩ => ⟨S1000000x64, .f32⟩
  | .hbm, ⟨76, _⟩ => ⟨S1000000x64, .f32⟩
  | .hbm, ⟨77, _⟩ => ⟨S1000000x27, .f32⟩
  | .hbm, ⟨78, _⟩ => ⟨S1x27, .f32⟩
  | .hbm, ⟨79, _⟩ => ⟨S1000000x27, .f32⟩
  | .hbm, ⟨80, _⟩ => ⟨S1000000x27, .f32⟩
  | .hbm, ⟨81, _⟩ => ⟨S1000000x27, .f32⟩
  | .hbm, ⟨82, _⟩ => ⟨S1000000x27, .f32⟩
  | .hbm, ⟨83, _⟩ => ⟨S_, .f32⟩
  | .hbm, ⟨84, _⟩ => ⟨S1000000x27, .f32⟩
  | .hbm, ⟨85, _⟩ => ⟨S1000000x27, .f32⟩
  | .hbm, ⟨86, _⟩ => ⟨S_, .f32⟩
  | .hbm, ⟨87, _⟩ => ⟨S1000000x27, .f32⟩
  | .hbm, ⟨88, _⟩ => ⟨S1000000x27, .f32⟩
  | .hbm, ⟨89, _⟩ => ⟨S1000000x27, .f32⟩
  | .hbm, ⟨90, _⟩ => ⟨S1000000x64, .f32⟩
  | .hbm, ⟨91, _⟩ => ⟨S1x64, .f32⟩
  | .hbm, ⟨92, _⟩ => ⟨S1000000x64, .f32⟩
  | .hbm, ⟨93, _⟩ => ⟨S1000000x64, .f32⟩
  | .hbm, ⟨94, _⟩ => ⟨S1000000x64, .f32⟩
  | .hbm, ⟨95, _⟩ => ⟨S1000000x64, .f32⟩
  | .hbm, ⟨96, _⟩ => ⟨S1000000x64, .f32⟩
  | .hbm, ⟨97, _⟩ => ⟨S1000000x64, .f32⟩
  | .hbm, ⟨98, _⟩ => ⟨S1000000x64, .f32⟩
  | .hbm, ⟨99, _⟩ => ⟨S_, .i32⟩
  | .hbm, ⟨100, _⟩ => ⟨S1000000, .i32⟩
  | .hbm, ⟨101, _⟩ => ⟨S1000000, .i1⟩
  | .hbm, ⟨102, _⟩ => ⟨S_, .i32⟩
  | .hbm, ⟨103, _⟩ => ⟨S1000000, .i32⟩
  | .hbm, ⟨104, _⟩ => ⟨S1000000, .i32⟩
  | .hbm, ⟨105, _⟩ => ⟨S1000000, .i32⟩
  | .hbm, ⟨106, _⟩ => ⟨S1000000x1, .i32⟩
  | .hbm, ⟨107, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_4 : Ref sig .tc := ⟨.hbm, 83, rfl⟩
abbrev main_v47 : Ref sig .tc := ⟨.hbm, 84, rfl⟩
abbrev main_v48 : Ref sig .tc := ⟨.hbm, 85, rfl⟩
abbrev main_cst_5 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_6 : Ref sig .tc := ⟨.hbm, 99, rfl⟩
abbrev main_v61 : Ref sig .tc := ⟨.hbm, 100, rfl⟩
abbrev main_v62 : Ref sig .tc := ⟨.hbm, 101, rfl⟩
abbrev main_c_7 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  concatenates_S1000000x64_S1000000x64_S1000000x64_S1000000x192_d1 : Shape.Concatenates [S1000000x64, S1000000x64, S1000000x64] S1000000x192 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S27_S1x27_1 : S27.BroadcastsInDim S1x27 (![1] : Fin 1 → Fin S1x27.rank)
  bcast_S1x27_S1000000x27_0_1 : S1x27.BroadcastsInDim S1000000x27 (![0, 1] : Fin 2 → Fin S1000000x27.rank)
  bcast_S_S1000000x27 : S_.BroadcastsInDim S1000000x27 (![] : Fin 0 → Fin S1000000x27.rank)
  gather_S100000x64_S1000000x1_S1000000x64_1_0_n_n_0_1_164_wf : GatherDims.WF S100000x64 S1000000x1 S1000000x64 [1] [0] [] [0] [] 1 ![1, 64]
  dot_S1000000x192_S192x64_S1000000x64_1_0_0_1_n_n_wf : DotDims.WF S1000000x192 S192x64 S1000000x64 [1] [0] [0] [1] [] []
  dot_S1000000x32_S32x64_S1000000x64_1_0_0_1_n_n_wf : DotDims.WF S1000000x32 S32x64 S1000000x64 [1] [0] [0] [1] [] []
  dot_S1000000x27_S27x27_S1000000x27_1_0_0_1_n_n_wf : DotDims.WF S1000000x27 S27x27 S1000000x27 [1] [0] [0] [1] [] []
  dot_S1000000x27_S27x64_S1000000x64_1_0_0_1_n_n_wf : DotDims.WF S1000000x27 S27x64 S1000000x64 [1] [0] [0] [1] [] []
  scatter_S100000x64_S1000000x1_S1000000x64_1_0_0_1_wf : ScatterDims.WF S100000x64 S1000000x1 S1000000x64 [1] [0] [0] 1

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x192_S192x64_S1000000x64_1_0_0_1_n_n : DotDims S1000000x192 S192x64 S1000000x64 where
  lhsContracting := [1]
  rhsContracting := [0]
  lhsNonContracting := [0]
  rhsNonContracting := [1]
  lhsBatch := []
  rhsBatch := []
  wf := dot_S1000000x192_S192x64_S1000000x64_1_0_0_1_n_n_wf
def dot_S1000000x32_S32x64_S1000000x64_1_0_0_1_n_n : DotDims S1000000x32 S32x64 S1000000x64 where
  lhsContracting := [1]
  rhsContracting := [0]
  lhsNonContracting := [0]
  rhsNonContracting := [1]
  lhsBatch := []
  rhsBatch := []
  wf := dot_S1000000x32_S32x64_S1000000x64_1_0_0_1_n_n_wf
def dot_S1000000x27_S27x27_S1000000x27_1_0_0_1_n_n : DotDims S1000000x27 S27x27 S1000000x27 where
  lhsContracting := [1]
  rhsContracting := [0]
  lhsNonContracting := [0]
  rhsNonContracting := [1]
  lhsBatch := []
  rhsBatch := []
  wf := dot_S1000000x27_S27x27_S1000000x27_1_0_0_1_n_n_wf
def dot_S1000000x27_S27x64_S1000000x64_1_0_0_1_n_n : DotDims S1000000x27 S27x64 S1000000x64 where
  lhsContracting := [1]
  rhsContracting := [0]
  lhsNonContracting := [0]
  rhsNonContracting := [1]
  lhsBatch := []
  rhsBatch := []
  wf := dot_S1000000x27_S27x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.LibLogisticSoftplus.lean ====
/-
  The logistic function and softplus as they are spelt out in float operations, read over the extended reals.

  * The f32 word 0x3F800000 is 1 and the word 0x00000000 is 0.
  * 1 / (1 + e⁻ˣ), with the constant 1 given by its word, is the logistic function at every extended real
    (−∞ ↦ 0, +∞ ↦ 1 included): `logistic_eq`.
  * softplus x = log(1 + eˣ) in its overflow-safe form max(x, 0) + log1p(exp(−|x − 0|)), guarded by the test
    `x − 0 ≠ x − 0` that no extended real passes, in two spellings that differ only in how the exponent's sign is
    written — as a difference from zero (`softplusK`) or as a negation (`softplusH`) — and in the comparison's
    ordered / unordered flavour, which the extended reals do not tell apart: `softplusH_eq`.
-/
import Idealize.ShloMosaic.PureOps.Ideal.Laws

noncomputable section

namespace Cert.LibLogisticSoftplus

open Idealize.ShloMosaic

/-- The f32 words of 0 and of 1, as extended reals. -/
abbrev zeroW : EReal := Ideal.ofBits .f32 0x00000000#32
abbrev oneW : EReal := Ideal.ofBits .f32 0x3F800000#32

/-- The word of 0 is 0. -/
theorem zeroW_eq : zeroW = 0 := Ideal.ofBits_zero_f32

/-- The word of 1 is 1: sign 0, exponent 127, mantissa 0. -/
theorem oneW_eq : oneW = 1 := by
  show Ideal.ofBits .f32 0x3F800000#32 = ((1 : ℝ) : EReal)
  simp [Ideal.ofBits, Ideal.ieee, -EReal.coe_mul]
  norm_num

/-- softplus with the exponent −|x − 0| written as the difference 0 − |x − 0|, behind an ordered `≠` test. -/
def softplusK (x : EReal) : EReal :=
  Scalar.select (Ideal.cmp .one (x - zeroW) (x - zeroW)) (x + zeroW)
    (max x zeroW + Ideal.log1p (Ideal.exp (zeroW - max (x - zeroW) (-(x - zeroW)))))

/-- softplus with the exponent written as the negation −|x − 0|, behind an unordered `≠` test. -/
def softplusH (x : EReal) : EReal :=
  Scalar.select (Ideal.cmp .une (x - zeroW) (x - zeroW)) (x + zeroW)
    (max x zeroW + Ideal.log1p (Ideal.exp (-(max (x - zeroW) (-(x - zeroW))))))

/-- The two spellings are one function: 0 − y = −y, and the two comparisons agree on the extended reals. -/
theorem softplusH_eq (x : EReal) : softplusH x = softplusK x := by
  unfold softplusK softplusH
  rw [show Ideal.cmp .one (x - zeroW) (x - zeroW) = Ideal.cmp .une (x - zeroW) (x - zeroW) from rfl]
  rw [show zeroW - max (x - zeroW) (-(x - zeroW)) = -(max (x - zeroW) (-(x - zeroW))) by rw [zeroW_eq, zero_sub]]

/-- The logistic function spelt 1 / (1 + e⁻ˣ) with the word of 1. -/
theorem logistic_eq (x : EReal) : Ideal.div oneW (oneW + Ideal.exp (-x)) = Ideal.logistic x := by
  rw [oneW_eq]; rfl

end Cert.LibLogisticSoftplus

end
-- ==== Proof.EdgeFn.lean ====
/-
  The per-edge function both programs compute, as extended reals.

  For an edge `e` with endpoint feature rows `ni e`, `nj e`, distance `r e`, radial features `cs e` and plane-wave
  features `pw e`, and an output channel `d`:

    gate  = σ( ni·Wg₁ + nj·Wg₂ + ((ni − nj)/r)·Wg₃ + bg )            (σ the logistic function)
    mlp   = softplus( ni·Wm₁ + nj·Wm₂ + ((ni − nj)/r)·Wm₃ + bm )
    z₁    = cs·W₁ + b₁
    z₂    = (pw ⊙ σ(pw·W2g + b2g))·W₂ + b₂
    z     = gate · mlp · (z₁ + z₂) · mask

  The three weight blocks are the consecutive 64-row stretches of one [192, 64] matrix, so the three dot products
  are one dot product of the concatenated row (ni, nj, (ni − nj)/r) with that matrix. The function is stated for any
  number `E` of rows: a row of the result reads only the same row of the per-edge operands, so a block of rows of the
  whole arrays gives the same rows of the result (`Zat_rows`).
-/
import Idealize.ShloMosaic.PureOps.Ideal.Laws
import Idealize.ShloMosaic.Lib.ValueIdx
import proofs.«143173_j62637803045231_1_alg».proof.Proof.LibLogisticSoftplus

noncomputable section

open scoped BigOperators

namespace Cert.EdgeFn

open Idealize.ShloMosaic Idealize.ShloMosaic.ValueIdx Cert.LibLogisticSoftplus

variable {E : ℕ}

/-- An [a, b] array of extended reals. -/
abbrev M (a b : ℕ) : Type := (⟨2, ![a, b]⟩ : Shape).Idx → EReal

/-- The pre-activation of a layer on the row (ni, nj, (ni − nj)/r), the layer's [192, 64] weight given as its three
    [64, 64] blocks and its bias as a [1, 64] row. -/
def pre3 (ni nj : M E 64) (r : M E 1) (A B C : M 64 64) (b : M 1 64) (e : Fin E) (d : Fin 64) : EReal :=
  ((∑ k : Fin 64, ni (ix2 e k) * A (ix2 k d) + ∑ k : Fin 64, nj (ix2 e k) * B (ix2 k d))
    + ∑ k : Fin 64, Ideal.div (ni (ix2 e k) - nj (ix2 e k)) (r (ix2 e (0 : Fin 1))) * C (ix2 k d))
    + b (ix2 (0 : Fin 1) d)

/-- z₁: the radial features through their layer. -/
def lin1 (cs : M E 32) (W : M 32 64) (b : M 1 64) (e : Fin E) (d : Fin 64) : EReal :=
  ∑ k : Fin 32, cs (ix2 e k) * W (ix2 k d) + b (ix2 (0 : Fin 1) d)

/-- The plane-wave gate: σ(pw·W2g + b2g). -/
def gate2 (pw : M E 27) (W2g : M 27 27) (b2g : M 1 27) (e : Fin E) (j : Fin 27) : EReal :=
  Ideal.logistic (∑ k : Fin 27, pw (ix2 e k) * W2g (ix2 k j) + b2g (ix2 (0 : Fin 1) j))

/-- z₂: the gated plane-wave features through their layer. -/
def lin2 (pw : M E 27) (W2g : M 27 27) (b2g : M 1 27) (W2 : M 27 64) (b2 : M 1 64) (e : Fin E) (d : Fin 64) : EReal :=
  ∑ j : Fin 27, (pw (ix2 e j) * gate2 pw W2g b2g e j) * W2 (ix2 j d) + b2 (ix2 (0 : Fin 1) d)

/-- The edge function at row `e`, channel `d`. -/
def Zat (ni nj : M E 64) (r mask : M E 1) (cs : M E 32) (pw : M E 27)
    (Wg1 Wg2 Wg3 : M 64 64) (bg : M 1 64) (Wm1 Wm2 Wm3 : M 64 64) (bm : M 1 64)
    (W1 : M 32 64) (b1 : M 1 64) (W2g : M 27 27) (b2g : M 1 27) (W2 : M 27 64) (b2 : M 1 64)
    (e : Fin E) (d : Fin 64) : EReal :=
  ((Ideal.logistic (pre3 ni nj r Wg1 Wg2 Wg3 bg e d) * softplusK (pre3 ni nj r Wm1 Wm2 Wm3 bm e d))
    * (lin1 cs W1 b1 e d + lin2 pw W2g b2g W2 b2 e d)) * mask (ix2 e (0 : Fin 1))

/-- The edge function as an [E, 64] array. -/
def Z (ni nj : M E 64) (r mask : M E 1) (cs : M E 32) (pw : M E 27)
    (Wg1 Wg2 Wg3 : M 64 64) (bg : M 1 64) (Wm1 Wm2 Wm3 : M 64 64) (bm : M 1 64)
    (W1 : M 32 64) (b1 : M 1 64) (W2g : M 27 27) (b2g : M 1 27) (W2 : M 27 64) (b2 : M 1 64) : M E 64 :=
  fun i => Zat ni nj r mask cs pw Wg1 Wg2 Wg3 bg Wm1 Wm2 Wm3 bm W1 b1 W2g b2g W2 b2 (i 0) (i 1)

theorem Z_ix2 (ni nj : M E 64) (r mask : M E 1) (cs : M E 32) (pw : M E 27)
    (Wg1 Wg2 Wg3 : M 64 64) (bg : M 1 64) (Wm1 Wm2 Wm3 : M 64 64) (bm : M 1 64)
    (W1 : M 32 64) (b1 : M 1 64) (W2g : M 27 27) (b2g : M 1 27) (W2 : M 27 64) (b2 : M 1 64) (e : Fin E) (d : Fin 64) :
    Z ni nj r mask cs pw Wg1 Wg2 Wg3 bg Wm1 Wm2 Wm3 bm W1 b1 W2g b2g W2 b2 (ix2 e d)
      = Zat ni nj r mask cs pw Wg1 Wg2 Wg3 bg Wm1 Wm2 Wm3 bm W1 b1 W2g b2g W2 b2 e d := rfl

/-- A row of the edge function reads only that row of the per-edge operands: two families of operands, of any two
    row counts, that agree on a pair of rows give the same values on that pair. -/
theorem Zat_rows {E' : ℕ} (ni nj : M E 64) (r mask : M E 1) (cs : M E 32) (pw : M E 27)
    (ni' nj' : M E' 64) (r' mask' : M E' 1) (cs' : M E' 32) (pw' : M E' 27)
    (Wg1 Wg2 Wg3 : M 64 64) (bg : M 1 64) (Wm1 Wm2 Wm3 : M 64 64) (bm : M 1 64)
    (W1 : M 32 64) (b1 : M 1 64) (W2g : M 27 27) (b2g : M 1 27) (W2 : M 27 64) (b2 : M 1 64)
    (e : Fin E) (e' : Fin E')
    (h0 : ∀ k : Fin 64, ni (ix2 e k) = ni' (ix2 e' k)) (h1 : ∀ k : Fin 64, nj (ix2 e k) = nj' (ix2 e' k))
    (h2 : r (ix2 e (0 : Fin 1)) = r' (ix2 e' (0 : Fin 1))) (h3 : mask (ix2 e (0 : Fin 1)) = mask' (ix2 e' (0 : Fin 1)))
    (h4 : ∀ k : Fin 32, cs (ix2 e k) = cs' (ix2 e' k)) (h5 : ∀ k : Fin 27, pw (ix2 e k) = pw' (ix2 e' k)) (d : Fin 64) :
    Zat ni nj r mask cs pw Wg1 Wg2 Wg3 bg Wm1 Wm2 Wm3 bm W1 b1 W2g b2g W2 b2 e d
      = Zat ni' nj' r' mask' cs' pw' Wg1 Wg2 Wg3 bg Wm1 Wm2 Wm3 bm W1 b1 W2g b2g W2 b2 e' d := by
  unfold Zat pre3 lin1 lin2 gate2
  simp only [h0, h1, h2, h3, h4, h5]

end Cert.EdgeFn

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.Payload.lean ====
/-
  The kernel body's arithmetic, entry by entry.

  The body's one store writes a [2000, 64] block computed from the point's input blocks. Every operation in it is
  either entrywise, a broadcast of a column or of a row, or a matrix product whose entry (p, q) reads row p of its
  left operand; so entry (p, q) of the stored block is the edge function (EdgeFn.Zat) of the blocks at row p,
  channel q — the edge function at 2000 rows.
-/
import proofs.«143173_j62637803045231_1_alg».proof.Proof.Gen.KernelIdeal.Skeleton
import proofs.«143173_j62637803045231_1_alg».proof.Proof.EdgeFn
import proofs.«143173_j62637803045231_1_alg».proof.Proof.LibMatmulAt
import proofs.«143173_j62637803045231_1_alg».proof.Proof.LibColBroadcast
import Idealize.ShloMosaic.Lib.Pipeline.Value
import Idealize.ShloMosaic.Lib.ValueIdx
import Idealize.ShloMosaic.Lib.ValueLayout

noncomputable section

open scoped BigOperators

namespace Cert.KernelIdeal.Hand

open Cert.KernelIdeal Cert.KernelIdeal.Gen Idealize.ShloMosaic Idealize.ShloMosaic.ValueIdx Cert.EdgeFn Cert.LibLogisticSoftplus

/-! ## The four matrix products, read at an entry -/

theorem mm64_l0 (i : S2000x64.Idx) (q : dot_S2000x64_S64x64_S2000x64_1_0_0_1_n_n.contr.Idx) : (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem mm64_r1 (i : S2000x64.Idx) (q : dot_S2000x64_S64x64_S2000x64_1_0_0_1_n_n.contr.Idx) : (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The product of a [2000, 64] block by a [64, 64] matrix into the zero accumulator, entry (p, q): Σₖ l(p,k)·r(k,q). -/
theorem mm64 {φ₁ φ₂ : FTy} (l : FVec Ideal S2000x64 φ₁) (r : FVec Ideal S64x64 φ₂) (p : Fin 2000) (q : Fin 64) :
    matmul dot_S2000x64_S64x64_S2000x64_1_0_0_1_n_n none l r (constant S2000x64 .f32 0x00000000#32) (ix2 p q) = ∑ k : Fin 64, l (ix2 p k) * r (ix2 k q) :=
  Idealize.ShloMosaic.MatmulAt.matmul_zero_ix2 dot_S2000x64_S64x64_S2000x64_1_0_0_1_n_n rfl rfl mm64_l0
    (fun i q => dot_S2000x64_S64x64_S2000x64_1_0_0_1_n_n.lhsIdx_val_of_single rfl i q) (fun i q => dot_S2000x64_S64x64_S2000x64_1_0_0_1_n_n.rhsIdx_val_of_single rfl i q) mm64_r1 none l r p q

theorem mm32_l0 (i : S2000x64.Idx) (q : dot_S2000x32_S32x64_S2000x64_1_0_0_1_n_n.contr.Idx) : (dot_S2000x32_S32x64_S2000x64_1_0_0_1_n_n.lhsIdx i q 0).val = (i 0).val := by
  unfold DotDims.lhsIdx
  rw [dif_neg (show ¬(0 : Fin S2000x32.rank) ∈ dot_S2000x32_S32x64_S2000x64_1_0_0_1_n_n.lhsBatch by decide), dif_pos (show (0 : Fin S2000x32.rank) ∈ dot_S2000x32_S32x64_S2000x64_1_0_0_1_n_n.lhsNonContracting by decide)]
  rfl
theorem mm32_r1 (i : S2000x64.Idx) (q : dot_S2000x32_S32x64_S2000x64_1_0_0_1_n_n.contr.Idx) : (dot_S2000x32_S32x64_S2000x64_1_0_0_1_n_n.rhsIdx i q 1).val = (i 1).val := by
  unfold DotDims.rhsIdx
  rw [dif_neg (show ¬(1 : Fin S32x64.rank) ∈ dot_S2000x32_S32x64_S2000x64_1_0_0_1_n_n.rhsBatch by decide), dif_pos (show (1 : Fin S32x64.rank) ∈ dot_S2000x32_S32x64_S2000x64_1_0_0_1_n_n.rhsNonContracting by decide)]
  rfl

/-- The product of a [2000, 32] block by a [32, 64] matrix into the zero accumulator, entry (p, q): Σₖ l(p,k)·r(k,q). -/
theorem mm32 {φ₁ φ₂ : FTy} (l : FVec Ideal S2000x32 φ₁) (r : FVec Ideal S32x64 φ₂) (p : Fin 2000) (q : Fin 64) :
    matmul dot_S2000x32_S32x64_S2000x64_1_0_0_1_n_n none l r (constant S2000x64 .f32 0x00000000#32) (ix2 p q) = ∑ k : Fin 32, l (ix2 p k) * r (ix2 k q) :=
  Idealize.ShloMosaic.MatmulAt.matmul_zero_ix2 dot_S2000x32_S32x64_S2000x64_1_0_0_1_n_n rfl rfl mm32_l0
    (fun i q => dot_S2000x32_S32x64_S2000x64_1_0_0_1_n_n.lhsIdx_val_of_single rfl i q) (fun i q => dot_S2000x32_S32x64_S2000x64_1_0_0_1_n_n.rhsIdx_val_of_single rfl i q) mm32_r1 none l r p q

theorem mm27_l0 (i : S2000x27.Idx) (q : dot_S2000x27_S27x27_S2000x27_1_0_0_1_n_n.contr.Idx) : (dot_S2000x27_S27x27_S2000x27_1_0_0_1_n_n.lhsIdx i q 0).val = (i 0).val := by
  unfold DotDims.lhsIdx
  rw [dif_neg (show ¬(0 : Fin S2000x27.rank) ∈ dot_S2000x27_S27x27_S2000x27_1_0_0_1_n_n.lhsBatch by decide), dif_pos (show (0 : Fin S2000x27.rank) ∈ dot_S2000x27_S27x27_S2000x27_1_0_0_1_n_n.lhsNonContracting by decide)]
  rfl
theorem mm27_r1 (i : S2000x27.Idx) (q : dot_S2000x27_S27x27_S2000x27_1_0_0_1_n_n.contr.Idx) : (dot_S2000x27_S27x27_S2000x27_1_0_0_1_n_n.rhsIdx i q 1).val = (i 1).val := by
  unfold DotDims.rhsIdx
  rw [dif_neg (show ¬(1 : Fin S27x27.rank) ∈ dot_S2000x27_S27x27_S2000x27_1_0_0_1_n_n.rhsBatch by decide), dif_pos (show (1 : Fin S27x27.rank) ∈ dot_S2000x27_S27x27_S2000x27_1_0_0_1_n_n.rhsNonContracting by decide)]
  rfl

/-- The product of a [2000, 27] block by a [27, 27] matrix into the zero accumulator, entry (p, q): Σₖ l(p,k)·r(k,q). -/
theorem mm27 {φ₁ φ₂ : FTy} (l : FVec Ideal S2000x27 φ₁) (r : FVec Ideal S27x27 φ₂) (p : Fin 2000) (q : Fin 27) :
    matmul dot_S2000x27_S27x27_S2000x27_1_0_0_1_n_n none l r (constant S2000x27 .f32 0x00000000#32) (ix2 p q) = ∑ k : Fin 27, l (ix2 p k) * r (ix2 k q) :=
  Idealize.ShloMosaic.MatmulAt.matmul_zero_ix2 dot_S2000x27_S27x27_S2000x27_1_0_0_1_n_n rfl rfl mm27_l0
    (fun i q => dot_S2000x27_S27x27_S2000x27_1_0_0_1_n_n.lhsIdx_val_of_single rfl i q) (fun i q => dot_S2000x27_S27x27_S2000x27_1_0_0_1_n_n.rhsIdx_val_of_single rfl i q) mm27_r1 none l r p q

theorem mm27o_l0 (i : S2000x64.Idx) (q : dot_S2000x27_S27x64_S2000x64_1_0_0_1_n_n.contr.Idx) : (dot_S2000x27_S27x64_S2000x64_1_0_0_1_n_n.lhsIdx i q 0).val = (i 0).val := by
  unfold DotDims.lhsIdx
  rw [dif_neg (show ¬(0 : Fin S2000x27.rank) ∈ dot_S2000x27_S27x64_S2000x64_1_0_0_1_n_n.lhsBatch by decide), dif_pos (show (0 : Fin S2000x27.rank) ∈ dot_S2000x27_S27x64_S2000x64_1_0_0_1_n_n.lhsNonContracting by decide)]
  rfl
theorem mm27o_r1 (i : S2000x64.Idx) (q : dot_S2000x27_S27x64_S2000x64_1_0_0_1_n_n.contr.Idx) : (dot_S2000x27_S27x64_S2000x64_1_0_0_1_n_n.rhsIdx i q 1).val = (i 1).val := by
  unfold DotDims.rhsIdx
  rw [dif_neg (show ¬(1 : Fin S27x64.rank) ∈ dot_S2000x27_S27x64_S2000x64_1_0_0_1_n_n.rhsBatch by decide), dif_pos (show (1 : Fin S27x64.rank) ∈ dot_S2000x27_S27x64_S2000x64_1_0_0_1_n_n.rhsNonContracting by decide)]
  rfl

/-- The product of a [2000, 27] block by a [27, 64] matrix into the zero accumulator, entry (p, q): Σₖ l(p,k)·r(k,q). -/
theorem mm27o {φ₁ φ₂ : FTy} (l : FVec Ideal S2000x27 φ₁) (r : FVec Ideal S27x64 φ₂) (p : Fin 2000) (q : Fin 64) :
    matmul dot_S2000x27_S27x64_S2000x64_1_0_0_1_n_n none l r (constant S2000x64 .f32 0x00000000#32) (ix2 p q) = ∑ k : Fin 27, l (ix2 p k) * r (ix2 k q) :=
  Idealize.ShloMosaic.MatmulAt.matmul_zero_ix2 dot_S2000x27_S27x64_S2000x64_1_0_0_1_n_n rfl rfl mm27o_l0
    (fun i q => dot_S2000x27_S27x64_S2000x64_1_0_0_1_n_n.lhsIdx_val_of_single rfl i q) (fun i q => dot_S2000x27_S27x64_S2000x64_1_0_0_1_n_n.rhsIdx_val_of_single rfl i q) mm27o_r1 none l r p q

/-! ## The pieces of the body -/

/-- The three products of a 192-input layer summed, plus the bias row: entry (p, q). -/
theorem pre_vec (a b c : FVec Ideal S2000x64 .bf16) (A B C : Vec Ideal S64x64 .f32) (bias : Vec Ideal S1x64 .f32)
    (p : Fin 2000) (q : Fin 64) :
    addf (addf (addf
        (matmul dot_S2000x64_S64x64_S2000x64_1_0_0_1_n_n none a (truncf .bf16 A bitsLt_bf16_f32) (constant S2000x64 .f32 0x00000000#32))
        (matmul dot_S2000x64_S64x64_S2000x64_1_0_0_1_n_n none b (truncf .bf16 B bitsLt_bf16_f32) (constant S2000x64 .f32 0x00000000#32)))
        (matmul dot_S2000x64_S64x64_S2000x64_1_0_0_1_n_n none c (truncf .bf16 C bitsLt_bf16_f32) (constant S2000x64 .f32 0x00000000#32)))
      (broadcastTo S2000x64 bias broadcasts_S1x64_S2000x64) (ix2 p q)
    = ((∑ k : Fin 64, a (ix2 p k) * A (ix2 k q) + ∑ k : Fin 64, b (ix2 p k) * B (ix2 k q))
        + ∑ k : Fin 64, c (ix2 p k) * C (ix2 k q)) + bias (ix2 (0 : Fin 1) q) := by
  show ((matmul dot_S2000x64_S64x64_S2000x64_1_0_0_1_n_n none a (truncf .bf16 A bitsLt_bf16_f32) (constant S2000x64 .f32 0x00000000#32) (ix2 p q)
      + matmul dot_S2000x64_S64x64_S2000x64_1_0_0_1_n_n none b (truncf .bf16 B bitsLt_bf16_f32) (constant S2000x64 .f32 0x00000000#32) (ix2 p q))
      + matmul dot_S2000x64_S64x64_S2000x64_1_0_0_1_n_n none c (truncf .bf16 C bitsLt_bf16_f32) (constant S2000x64 .f32 0x00000000#32) (ix2 p q))
      + broadcastTo S2000x64 bias broadcasts_S1x64_S2000x64 (ix2 p q) = _
  rw [mm64, mm64, mm64, broadcastTo_1b_ab_apply]
  rfl

/-- The softplus the body spells out, entry by entry. -/
theorem softplus_vec (v : FVec Ideal S2000x64 .f32) (i : S2000x64.Idx) :
    (select (cmpf .one (subf v (broadcast S2000x64 (Scalar.ofBits .f32 0x00000000#32))) (subf v (broadcast S2000x64 (Scalar.ofBits .f32 0x00000000#32))))
      (addf v (broadcast S2000x64 (Scalar.ofBits .f32 0x00000000#32)))
      (addf (maximumf v (broadcast S2000x64 (Scalar.ofBits .f32 0x00000000#32)))
        (log1p (exp (subf (broadcast S2000x64 (Scalar.ofBits .f32 0x00000000#32))
          (absf (subf v (broadcast S2000x64 (Scalar.ofBits .f32 0x00000000#32))))))))
      : FVec Ideal S2000x64 .f32) i = softplusK (v i) := rfl

theorem pay5_at (v0 : Vec Ideal S2000x64 .f32) (i : S2000x64.Idx) : k0_pay5 v0 i = v0 i := by
  unfold k0_pay5 k0_pay2
  simp only [shapeCast_self]
  rfl

theorem pay6_at (v2 : Vec Ideal S2000x64 .f32) (i : S2000x64.Idx) : k0_pay6 v2 i = v2 i := by
  unfold k0_pay6 k0_pay3
  simp only [shapeCast_self]
  rfl

/-- (ni − nj) / r, the distance a column broadcast along the channels. -/
theorem pay7_at (v0 v2 : Vec Ideal S2000x64 .f32) (v4 : Vec Ideal S2000x1 .f32) (p : Fin 2000) (k : Fin 64) :
    k0_pay7 v0 v2 v4 (ix2 p k) = Ideal.div (v0 (ix2 p k) - v2 (ix2 p k)) (v4 (ix2 p (0 : Fin 1))) := by
  unfold k0_pay7 k0_pay2 k0_pay3
  simp only [shapeCast_self]
  show Ideal.div (v0 (ix2 p k) - v2 (ix2 p k)) (broadcastTo S2000x64 v4 broadcasts_S2000x1_S2000x64 (ix2 p k)) = _
  rw [Cert.LibColBroadcast.broadcastTo_a1_ab_apply]

/-- The gate: σ of the gate layer's pre-activation. -/
theorem pay8_at (v0 v2 : Vec Ideal S2000x64 .f32) (v4 : Vec Ideal S2000x1 .f32) (v16 v19 v22 : Vec Ideal S64x64 .f32)
    (v25 : Vec Ideal S1x64 .f32) (p : Fin 2000) (q : Fin 64) :
    k0_pay8 v0 v2 v4 v16 v19 v22 v25 (ix2 p q) = Ideal.logistic (pre3 v0 v2 v4 v16 v19 v22 v25 p q) := by
  unfold k0_pay8
  simp only [shapeCast_self]
  refine (congrArg Ideal.logistic (pre_vec (k0_pay5 v0) (k0_pay6 v2) (k0_pay7 v0 v2 v4) v16 v19 v22 v25 p q)).trans ?_
  unfold pre3
  simp only [pay5_at, pay6_at, pay7_at]

/-- The softplus of the second layer's pre-activation. -/
theorem pay9_at (v0 v2 : Vec Ideal S2000x64 .f32) (v4 : Vec Ideal S2000x1 .f32) (v35 v38 v41 : Vec Ideal S64x64 .f32)
    (v44 : Vec Ideal S1x64 .f32) (p : Fin 2000) (q : Fin 64) :
    k0_pay9 (k0_pay5 v0) (k0_pay6 v2) (k0_pay7 v0 v2 v4) v35 v38 v41 v44 (ix2 p q)
      = softplusK (pre3 v0 v2 v4 v35 v38 v41 v44 p q) := by
  unfold k0_pay9
  simp only [shapeCast_self]
  refine (softplus_vec _ (ix2 p q)).trans (congrArg softplusK ?_)
  refine (pre_vec (k0_pay5 v0) (k0_pay6 v2) (k0_pay7 v0 v2 v4) v35 v38 v41 v44 p q).trans ?_
  unfold pre3
  simp only [pay5_at, pay6_at, pay7_at]

/-- z₁. -/
theorem pay10_at (v8 : Vec Ideal S2000x32 .f32) (v68 : Vec Ideal S32x64 .f32) (v70 : Vec Ideal S1x64 .f32)
    (p : Fin 2000) (q : Fin 64) : k0_pay10 v8 v68 v70 (ix2 p q) = lin1 v8 v68 v70 p q := by
  unfold k0_pay10
  simp only [shapeCast_self]
  show matmul (F := Ideal) dot_S2000x32_S32x64_S2000x64_1_0_0_1_n_n none (truncf .bf16 v8 bitsLt_bf16_f32) (truncf .bf16 v68 bitsLt_bf16_f32) (constant S2000x64 .f32 0x00000000#32) (ix2 p q)
      + broadcastTo S2000x64 v70 broadcasts_S1x64_S2000x64 (ix2 p q) = _
  rw [mm32, broadcastTo_1b_ab_apply]
  rfl

/-- pw ⊙ σ(pw·W2g + b2g), entry (p, j). -/
theorem gated_at (v9 : Vec Ideal S2000x27 .f32) (v76 : Vec Ideal S27x27 .f32) (v78 : Vec Ideal S1x27 .f32)
    (p : Fin 2000) (j : Fin 27) :
    mulf v9 (logistic (addf (matmul dot_S2000x27_S27x27_S2000x27_1_0_0_1_n_n none (k0_pay11 v9) (truncf .bf16 v76 bitsLt_bf16_f32) (constant S2000x27 .f32 0x00000000#32))
        (broadcastTo S2000x27 v78 broadcasts_S1x27_S2000x27))) (ix2 p j)
      = v9 (ix2 p j) * gate2 v9 v76 v78 p j := by
  show v9 (ix2 p j) * Ideal.logistic (matmul dot_S2000x27_S27x27_S2000x27_1_0_0_1_n_n none (k0_pay11 v9) (truncf .bf16 v76 bitsLt_bf16_f32) (constant S2000x27 .f32 0x00000000#32) (ix2 p j)
      + broadcastTo S2000x27 v78 broadcasts_S1x27_S2000x27 (ix2 p j)) = _
  rw [mm27, broadcastTo_1b_ab_apply]
  rfl

/-- The stored block, entry (p, q): the edge function of the blocks. -/
theorem pay1_at (x0 x1 : Vec Ideal S2000x64 .f32) (x2 x3 : Vec Ideal S2000x1 .f32) (x4 : Vec Ideal S2000x32 .f32) (x5 : Vec Ideal S2000x27 .f32)
    (x6 x7 x8 : Vec Ideal S64x64 .f32) (x9 : Vec Ideal S1x64 .f32) (x10 x11 x12 : Vec Ideal S64x64 .f32) (x13 : Vec Ideal S1x64 .f32)
    (x14 : Vec Ideal S32x64 .f32) (x15 : Vec Ideal S1x64 .f32) (x16 : Vec Ideal S27x27 .f32) (x17 : Vec Ideal S1x27 .f32)
    (x18 : Vec Ideal S27x64 .f32) (x19 : Vec Ideal S1x64 .f32) (p : Fin 2000) (q : Fin 64) :
    k0_pay1 (k0_pay4 x3) x5 (k0_pay8 x0 x1 x2 x6 x7 x8 x9) (k0_pay9 (k0_pay5 x0) (k0_pay6 x1) (k0_pay7 x0 x1 x2) x10 x11 x12 x13)
        (k0_pay10 x4 x14 x15) (k0_pay11 x5) x16 x17 x18 x19 (ix2 p q)
      = Zat x0 x1 x2 x3 x4 x5 x6 x7 x8 x9 x10 x11 x12 x13 x14 x15 x16 x17 x18 x19 p q := by
  unfold k0_pay1 k0_pay4
  simp only [shapeCast_self]
  show ((k0_pay8 x0 x1 x2 x6 x7 x8 x9 (ix2 p q) * k0_pay9 (k0_pay5 x0) (k0_pay6 x1) (k0_pay7 x0 x1 x2) x10 x11 x12 x13 (ix2 p q))
      * (k0_pay10 x4 x14 x15 (ix2 p q)
        + (matmul dot_S2000x27_S27x64_S2000x64_1_0_0_1_n_n none
              (truncf .bf16 (mulf x5 (logistic (addf (matmul dot_S2000x27_S27x27_S2000x27_1_0_0_1_n_n none (k0_pay11 x5) (truncf .bf16 x16 bitsLt_bf16_f32) (constant S2000x27 .f32 0x00000000#32))
                (broadcastTo S2000x27 x17 broadcasts_S1x27_S2000x27)))) bitsLt_bf16_f32)
              (truncf .bf16 x18 bitsLt_bf16_f32) (constant S2000x64 .f32 0x00000000#32) (ix2 p q)
          + broadcastTo S2000x64 x19 broadcasts_S1x64_S2000x64 (ix2 p q))))
      * broadcastTo S2000x64 x3 broadcasts_S2000x1_S2000x64 (ix2 p q) = _
  rw [pay8_at, pay9_at, pay10_at, mm27o, broadcastTo_1b_ab_apply, Cert.LibColBroadcast.broadcastTo_a1_ab_apply]
  unfold Zat lin2
  simp only [truncf_apply, gated_at]

end Cert.KernelIdeal.Hand

end
-- ==== Proof.Blocks.lean ====
/-
  From the blocks to the array.

  The grid has 500 points; point t fetches rows 2000·t … 2000·t + 1999 of the six per-edge operands and the whole of each
  weight and bias, and writes back rows 2000·t … 2000·t + 1999 of the result. By the body's arithmetic (Payload) and the
  row-locality of the edge function, what point t writes back is block t of ONE array: the edge function of the
  whole operands. The 500 blocks cover the 1,000,000 rows (row e lies in block e / 2000), so after the region the
  result array is that function.
-/
import proofs.«143173_j62637803045231_1_alg».proof.Proof.Gen.KernelIdeal.Frame
import proofs.«143173_j62637803045231_1_alg».proof.Proof.Payload

set_option maxRecDepth 16384

noncomputable section

namespace Cert.KernelIdeal.Hand

open Cert.KernelIdeal Cert.KernelIdeal.Gen Idealize.ShloMosaic Idealize.ShloMosaic.TcCoe Idealize.ShloMosaic.ValueIdx Cert.EdgeFn
open Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-! ## The index maps, decided over the 500 points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 2) = 0 ∧ win0_18.index t (1 : Fin 2) = 0 :=
  (by decide +kernel : ∀ t : Fin grid0.N, _)
theorem idx19 : ∀ t : Fin cfg0.N, win0_19.index t (0 : Fin 2) = 0 ∧ win0_19.index t (1 : Fin 2) = 0 :=
  (by decide +kernel : ∀ t : Fin grid0.N, _)
theorem idx20 : ∀ t : Fin cfg0.N, win0_20.index t (0 : Fin 2) = t.val ∧ win0_20.index t (1 : Fin 2) = 0 :=
  (by decide +kernel : ∀ t : Fin grid0.N, _)

/-! ## Each input window's block, read off its array -/

/-- Window 0's block at point t is rows 2000·t … of its array. -/
theorem iblk0_at (c : Dev nD) (t : Fin cfg0.N) (p : Fin 2000) (k : Fin 64) (e : Fin 1000000) (he : e.val = 2000 * t.val + p.val) :
    (iblk m c 0 t : Vec Ideal S2000x64 .f32) (ix2 p k) = (V m c main_v6 : S1000000x64.Idx → Elt Ideal .f32) (ix2 e k) := by
  obtain ⟨h0, h1⟩ := idx0 t
  unfold iblk
  rw [View.read_apply]
  refine congrArg (V m c main_v6 : S1000000x64.Idx → Elt Ideal .f32) (funext fun a => Fin.ext ?_)
  match a with
  | ⟨0, _⟩ => show win0_0.index t (0 : Fin 2) * 2000 + 1 * p.val = e.val; rw [h0, he]; omega
  | ⟨1, _⟩ => show win0_0.index t (1 : Fin 2) * 64 + 1 * k.val = k.val; rw [h1]; omega

/-- Window 1's block at point t is rows 2000·t … of its array. -/
theorem iblk1_at (c : Dev nD) (t : Fin cfg0.N) (p : Fin 2000) (k : Fin 64) (e : Fin 1000000) (he : e.val = 2000 * t.val + p.val) :
    (iblk m c 1 t : Vec Ideal S2000x64 .f32) (ix2 p k) = (V m c main_v13 : S1000000x64.Idx → Elt Ideal .f32) (ix2 e k) := by
  obtain ⟨h0, h1⟩ := idx1 t
  unfold iblk
  rw [View.read_apply]
  refine congrArg (V m c main_v13 : S1000000x64.Idx → Elt Ideal .f32) (funext fun a => Fin.ext ?_)
  match a with
  | ⟨0, _⟩ => show win0_1.index t (0 : Fin 2) * 2000 + 1 * p.val = e.val; rw [h0, he]; omega
  | ⟨1, _⟩ => show win0_1.index t (1 : Fin 2) * 64 + 1 * k.val = k.val; rw [h1]; omega

/-- Window 2's block at point t is rows 2000·t … of its array. -/
theorem iblk2_at (c : Dev nD) (t : Fin cfg0.N) (p : Fin 2000) (k : Fin 1) (e : Fin 1000000) (he : e.val = 2000 * t.val + p.val) :
    (iblk m c 2 t : Vec Ideal S2000x1 .f32) (ix2 p k) = (V m c main_v14 : S1000000x1.Idx → Elt Ideal .f32) (ix2 e k) := by
  obtain ⟨h0, h1⟩ := idx2 t
  unfold iblk
  rw [View.read_apply]
  refine congrArg (V m c main_v14 : S1000000x1.Idx → Elt Ideal .f32) (funext fun a => Fin.ext ?_)
  match a with
  | ⟨0, _⟩ => show win0_2.index t (0 : Fin 2) * 2000 + 1 * p.val = e.val; rw [h0, he]; omega
  | ⟨1, _⟩ => show win0_2.index t (1 : Fin 2) * 1 + 1 * k.val = k.val; rw [h1]; omega

/-- Window 3's block at point t is rows 2000·t … of its array. -/
theorem iblk3_at (c : Dev nD) (t : Fin cfg0.N) (p : Fin 2000) (k : Fin 1) (e : Fin 1000000) (he : e.val = 2000 * t.val + p.val) :
    (iblk m c 3 t : Vec Ideal S2000x1 .f32) (ix2 p k) = (V m c main_v17 : S1000000x1.Idx → Elt Ideal .f32) (ix2 e k) := by
  obtain ⟨h0, h1⟩ := idx3 t
  unfold iblk
  rw [View.read_apply]
  refine congrArg (V m c main_v17 : S1000000x1.Idx → Elt Ideal .f32) (funext fun a => Fin.ext ?_)
  match a with
  | ⟨0, _⟩ => show win0_3.index t (0 : Fin 2) * 2000 + 1 * p.val = e.val; rw [h0, he]; omega
  | ⟨1, _⟩ => show win0_3.index t (1 : Fin 2) * 1 + 1 * k.val = k.val; rw [h1]; omega

/-- Window 4's block at point t is rows 2000·t … of its array. -/
theorem iblk4_at (c : Dev nD) (t : Fin cfg0.N) (p : Fin 2000) (k : Fin 32) (e : Fin 1000000) (he : e.val = 2000 * t.val + p.val) :
    (iblk m c 4 t : Vec Ideal S2000x32 .f32) (ix2 p k) = (V m c main_arg4 : S1000000x32.Idx → Elt Ideal .f32) (ix2 e k) := by
  obtain ⟨h0, h1⟩ := idx4 t
  unfold iblk
  rw [View.read_apply]
  refine congrArg (V m c main_arg4 : S1000000x32.Idx → Elt Ideal .f32) (funext fun a => Fin.ext ?_)
  match a with
  | ⟨0, _⟩ => show win0_4.index t (0 : Fin 2) * 2000 + 1 * p.val = e.val; rw [h0, he]; omega
  | ⟨1, _⟩ => show win0_4.index t (1 : Fin 2) * 32 + 1 * k.val = k.val; rw [h1]; omega

/-- Window 5's block at point t is rows 2000·t … of its array. -/
theorem iblk5_at (c : Dev nD) (t : Fin cfg0.N) (p : Fin 2000) (k : Fin 27) (e : Fin 1000000) (he : e.val = 2000 * t.val + p.val) :
    (iblk m c 5 t : Vec Ideal S2000x27 .f32) (ix2 p k) = (V m c main_arg5 : S1000000x27.Idx → Elt Ideal .f32) (ix2 e k) := by
  obtain ⟨h0, h1⟩ := idx5 t
  unfold iblk
  rw [View.read_apply]
  refine congrArg (V m c main_arg5 : S1000000x27.Idx → Elt Ideal .f32) (funext fun a => Fin.ext ?_)
  match a with
  | ⟨0, _⟩ => show win0_5.index t (0 : Fin 2) * 2000 + 1 * p.val = e.val; rw [h0, he]; omega
  | ⟨1, _⟩ => show win0_5.index t (1 : Fin 2) * 27 + 1 * k.val = k.val; rw [h1]; omega

/-- Window 6's block is its whole array at every point. -/
theorem iblk6_eq (c : Dev nD) (t : Fin cfg0.N) :
    (iblk m c 6 t : Vec Ideal S64x64 .f32) = (V m c main_v18 : S64x64.Idx → Elt Ideal .f32) := by
  obtain ⟨h0, h1⟩ := idx6 t
  funext y
  unfold iblk
  rw [View.read_apply]
  refine congrArg (V m c main_v18 : S64x64.Idx → Elt Ideal .f32) (funext fun a => Fin.ext ?_)
  match a with
  | ⟨0, _⟩ => show win0_6.index t (0 : Fin 2) * 64 + 1 * (y 0).val = (y 0).val; rw [h0]; omega
  | ⟨1, _⟩ => show win0_6.index t (1 : Fin 2) * 64 + 1 * (y 1).val = (y 1).val; rw [h1]; omega

/-- Window 7's block is its whole array at every point. -/
theorem iblk7_eq (c : Dev nD) (t : Fin cfg0.N) :
    (iblk m c 7 t : Vec Ideal S64x64 .f32) = (V m c main_v19 : S64x64.Idx → Elt Ideal .f32) := by
  obtain ⟨h0, h1⟩ := idx7 t
  funext y
  unfold iblk
  rw [View.read_apply]
  refine congrArg (V m c main_v19 : S64x64.Idx → Elt Ideal .f32) (funext fun a => Fin.ext ?_)
  match a with
  | ⟨0, _⟩ => show win0_7.index t (0 : Fin 2) * 64 + 1 * (y 0).val = (y 0).val; rw [h0]; omega
  | ⟨1, _⟩ => show win0_7.index t (1 : Fin 2) * 64 + 1 * (y 1).val = (y 1).val; rw [h1]; omega

/-- Window 8's block is its whole array at every point. -/
theorem iblk8_eq (c : Dev nD) (t : Fin cfg0.N) :
    (iblk m c 8 t : Vec Ideal S64x64 .f32) = (V m c main_v20 : S64x64.Idx → Elt Ideal .f32) := by
  obtain ⟨h0, h1⟩ := idx8 t
  funext y
  unfold iblk
  rw [View.read_apply]
  refine congrArg (V m c main_v20 : S64x64.Idx → Elt Ideal .f32) (funext fun a => Fin.ext ?_)
  match a with
  | ⟨0, _⟩ => show win0_8.index t (0 : Fin 2) * 64 + 1 * (y 0).val = (y 0).val; rw [h0]; omega
  | ⟨1, _⟩ => show win0_8.index t (1 : Fin 2) * 64 + 1 * (y 1).val = (y 1).val; rw [h1]; omega

/-- Window 9's block is its whole array at every point. -/
theorem iblk9_eq (c : Dev nD) (t : Fin cfg0.N) :
    (iblk m c 9 t : Vec Ideal S1x64 .f32) = (V m c main_v24 : S1x64.Idx → Elt Ideal .f32) := by
  obtain ⟨h0, h1⟩ := idx9 t
  funext y
  unfold iblk
  rw [View.read_apply]
  refine congrArg (V m c main_v24 : S1x64.Idx → Elt Ideal .f32) (funext fun a => Fin.ext ?_)
  match a with
  | ⟨0, _⟩ => show win0_9.index t (0 : Fin 2) * 1 + 1 * (y 0).val = (y 0).val; rw [h0]; omega
  | ⟨1, _⟩ => show win0_9.index t (1 : Fin 2) * 64 + 1 * (y 1).val = (y 1).val; rw [h1]; omega

/-- Window 10's block is its whole array at every point. -/
theorem iblk10_eq (c : Dev nD) (t : Fin cfg0.N) :
    (iblk m c 10 t : Vec Ideal S64x64 .f32) = (V m c main_v21 : S64x64.Idx → Elt Ideal .f32) := by
  obtain ⟨h0, h1⟩ := idx10 t
  funext y
  unfold iblk
  rw [View.read_apply]
  refine congrArg (V m c main_v21 : S64x64.Idx → Elt Ideal .f32) (funext fun a => Fin.ext ?_)
  match a with
  | ⟨0, _⟩ => show win0_10.index t (0 : Fin 2) * 64 + 1 * (y 0).val = (y 0).val; rw [h0]; omega
  | ⟨1, _⟩ => show win0_10.index t (1 : Fin 2) * 64 + 1 * (y 1).val = (y 1).val; rw [h1]; omega

/-- Window 11's block is its whole array at every point. -/
theorem iblk11_eq (c : Dev nD) (t : Fin cfg0.N) :
    (iblk m c 11 t : Vec Ideal S64x64 .f32) = (V m c main_v22 : S64x64.Idx → Elt Ideal .f32) := by
  obtain ⟨h0, h1⟩ := idx11 t
  funext y
  unfold iblk
  rw [View.read_apply]
  refine congrArg (V m c main_v22 : S64x64.Idx → Elt Ideal .f32) (funext fun a => Fin.ext ?_)
  match a with
  | ⟨0, _⟩ => show win0_11.index t (0 : Fin 2) * 64 + 1 * (y 0).val = (y 0).val; rw [h0]; omega
  | ⟨1, _⟩ => show win0_11.index t (1 : Fin 2) * 64 + 1 * (y 1).val = (y 1).val; rw [h1]; omega

/-- Window 12's block is its whole array at every point. -/
theorem iblk12_eq (c : Dev nD) (t : Fin cfg0.N) :
    (iblk m c 12 t : Vec Ideal S64x64 .f32) = (V m c main_v23 : S64x64.Idx → Elt Ideal .f32) := by
  obtain ⟨h0, h1⟩ := idx12 t
  funext y
  unfold iblk
  rw [View.read_apply]
  refine congrArg (V m c main_v23 : S64x64.Idx → Elt Ideal .f32) (funext fun a => Fin.ext ?_)
  match a with
  | ⟨0, _⟩ => show win0_12.index t (0 : Fin 2) * 64 + 1 * (y 0).val = (y 0).val; rw [h0]; omega
  | ⟨1, _⟩ => show win0_12.index t (1 : Fin 2) * 64 + 1 * (y 1).val = (y 1).val; rw [h1]; omega

/-- Window 13's block is its whole array at every point. -/
theorem iblk13_eq (c : Dev nD) (t : Fin cfg0.N) :
    (iblk m c 13 t : Vec Ideal S1x64 .f32) = (V m c main_v25 : S1x64.Idx → Elt Ideal .f32) := by
  obtain ⟨h0, h1⟩ := idx13 t
  funext y
  unfold iblk
  rw [View.read_apply]
  refine congrArg (V m c main_v25 : S1x64.Idx → Elt Ideal .f32) (funext fun a => Fin.ext ?_)
  match a with
  | ⟨0, _⟩ => show win0_13.index t (0 : Fin 2) * 1 + 1 * (y 0).val = (y 0).val; rw [h0]; omega
  | ⟨1, _⟩ => show win0_13.index t (1 : Fin 2) * 64 + 1 * (y 1).val = (y 1).val; rw [h1]; omega

/-- Window 14's block is its whole array at every point. -/
theorem iblk14_eq (c : Dev nD) (t : Fin cfg0.N) :
    (iblk m c 14 t : Vec Ideal S32x64 .f32) = (V m c main_arg11 : S32x64.Idx → Elt Ideal .f32) := by
  obtain ⟨h0, h1⟩ := idx14 t
  funext y
  unfold iblk
  rw [View.read_apply]
  refine congrArg (V m c main_arg11 : S32x64.Idx → Elt Ideal .f32) (funext fun a => Fin.ext ?_)
  match a with
  | ⟨0, _⟩ => show win0_14.index t (0 : Fin 2) * 32 + 1 * (y 0).val = (y 0).val; rw [h0]; omega
  | ⟨1, _⟩ => show win0_14.index t (1 : Fin 2) * 64 + 1 * (y 1).val = (y 1).val; rw [h1]; omega

/-- Window 15's block is its whole array at every point. -/
theorem iblk15_eq (c : Dev nD) (t : Fin cfg0.N) :
    (iblk m c 15 t : Vec Ideal S1x64 .f32) = (V m c main_v26 : S1x64.Idx → Elt Ideal .f32) := by
  obtain ⟨h0, h1⟩ := idx15 t
  funext y
  unfold iblk
  rw [View.read_apply]
  refine congrArg (V m c main_v26 : S1x64.Idx → Elt Ideal .f32) (funext fun a => Fin.ext ?_)
  match a with
  | ⟨0, _⟩ => show win0_15.index t (0 : Fin 2) * 1 + 1 * (y 0).val = (y 0).val; rw [h0]; omega
  | ⟨1, _⟩ => show win0_15.index t (1 : Fin 2) * 64 + 1 * (y 1).val = (y 1).val; rw [h1]; omega

/-- Window 16's block is its whole array at every point. -/
theorem iblk16_eq (c : Dev nD) (t : Fin cfg0.N) :
    (iblk m c 16 t : Vec Ideal S27x27 .f32) = (V m c main_arg13 : S27x27.Idx → Elt Ideal .f32) := by
  obtain ⟨h0, h1⟩ := idx16 t
  funext y
  unfold iblk
  rw [View.read_apply]
  refine congrArg (V m c main_arg13 : S27x27.Idx → Elt Ideal .f32) (funext fun a => Fin.ext ?_)
  match a with
  | ⟨0, _⟩ => show win0_16.index t (0 : Fin 2) * 27 + 1 * (y 0).val = (y 0).val; rw [h0]; omega
  | ⟨1, _⟩ => show win0_16.index t (1 : Fin 2) * 27 + 1 * (y 1).val = (y 1).val; rw [h1]; omega

/-- Window 17's block is its whole array at every point. -/
theorem iblk17_eq (c : Dev nD) (t : Fin cfg0.N) :
    (iblk m c 17 t : Vec Ideal S1x27 .f32) = (V m c main_v27 : S1x27.Idx → Elt Ideal .f32) := by
  obtain ⟨h0, h1⟩ := idx17 t
  funext y
  unfold iblk
  rw [View.read_apply]
  refine congrArg (V m c main_v27 : S1x27.Idx → Elt Ideal .f32) (funext fun a => Fin.ext ?_)
  match a with
  | ⟨0, _⟩ => show win0_17.index t (0 : Fin 2) * 1 + 1 * (y 0).val = (y 0).val; rw [h0]; omega
  | ⟨1, _⟩ => show win0_17.index t (1 : Fin 2) * 27 + 1 * (y 1).val = (y 1).val; rw [h1]; omega

/-- Window 18's block is its whole array at every point. -/
theorem iblk18_eq (c : Dev nD) (t : Fin cfg0.N) :
    (iblk m c 18 t : Vec Ideal S27x64 .f32) = (V m c main_arg15 : S27x64.Idx → Elt Ideal .f32) := by
  obtain ⟨h0, h1⟩ := idx18 t
  funext y
  unfold iblk
  rw [View.read_apply]
  refine congrArg (V m c main_arg15 : S27x64.Idx → Elt Ideal .f32) (funext fun a => Fin.ext ?_)
  match a with
  | ⟨0, _⟩ => show win0_18.index t (0 : Fin 2) * 27 + 1 * (y 0).val = (y 0).val; rw [h0]; omega
  | ⟨1, _⟩ => show win0_18.index t (1 : Fin 2) * 64 + 1 * (y 1).val = (y 1).val; rw [h1]; omega

/-- Window 19's block is its whole array at every point. -/
theorem iblk19_eq (c : Dev nD) (t : Fin cfg0.N) :
    (iblk m c 19 t : Vec Ideal S1x64 .f32) = (V m c main_v28 : S1x64.Idx → Elt Ideal .f32) := by
  obtain ⟨h0, h1⟩ := idx19 t
  funext y
  unfold iblk
  rw [View.read_apply]
  refine congrArg (V m c main_v28 : S1x64.Idx → Elt Ideal .f32) (funext fun a => Fin.ext ?_)
  match a with
  | ⟨0, _⟩ => show win0_19.index t (0 : Fin 2) * 1 + 1 * (y 0).val = (y 0).val; rw [h0]; omega
  | ⟨1, _⟩ => show win0_19.index t (1 : Fin 2) * 64 + 1 * (y 1).val = (y 1).val; rw [h1]; omega

/-! ## The result array -/

/-- The edge function of the operands as the region finds them: the result array after the region. -/
def Zarr (c : Dev nD) : S1000000x64.Idx → Elt Ideal .f32 :=
  Z (E := 1000000) (V m c main_v6) (V m c main_v13) (V m c main_v14) (V m c main_v17) (V m c main_arg4) (V m c main_arg5) (V m c main_v18) (V m c main_v19) (V m c main_v20) (V m c main_v24) (V m c main_v21) (V m c main_v22) (V m c main_v23) (V m c main_v25) (V m c main_arg11) (V m c main_v26) (V m c main_arg13) (V m c main_v27) (V m c main_arg15) (V m c main_v28)

/-- Where entry (p, q) of block t lies in the result array. -/
theorem emb20 (t : Fin cfg0.N) (p : Fin 2000) (q : Fin 64) (e : Fin 1000000) (he : e.val = 2000 * t.val + p.val) :
    ((cfg0.win 20).blk t).view.emb (ix2 p q : S2000x64.Idx) = (ix2 e q : S1000000x64.Idx) := by
  obtain ⟨h0, h1⟩ := idx20 t
  refine funext fun a => Fin.ext ?_
  match a with
  | ⟨0, _⟩ => show win0_20.index t (0 : Fin 2) * 2000 + 1 * p.val = e.val; rw [h0, he]; omega
  | ⟨1, _⟩ => show win0_20.index t (1 : Fin 2) * 64 + 1 * q.val = q.val; rw [h1]; omega

/-- What point t writes back is block t of the edge function of the whole operands. -/
theorem flushed_eq (c : Dev nD) (t : Fin cfg0.N) :
    (dats m 0 c).flushed 20 t = ((cfg0.win 20).blk t).view.read (Elt Ideal) (Zarr m c) := by
  show (cfg0.win 20).cut (grid0.coords t) ((dats m 0 c).after 20 t) = _
  rw [after0_20]
  unfold out0_20
  rw [View.canon_unit_zero hz]
  simp only [View.ld_unit_zero (S := S2000x64) hz, View.ld_unit_zero (S := S2000x1) hz, View.ld_unit_zero (S := S2000x32) hz,
    View.ld_unit_zero (S := S2000x27) hz, View.ld_unit_zero (S := S64x64) hz, View.ld_unit_zero (S := S1x64) hz,
    View.ld_unit_zero (S := S32x64) hz, View.ld_unit_zero (S := S27x27) hz, View.ld_unit_zero (S := S1x27) hz,
    View.ld_unit_zero (S := S27x64) hz]
  funext j
  obtain ⟨p, q, rfl⟩ : ∃ (p : Fin 2000) (q : Fin 64), j = ix2 p q := ⟨j 0, j 1, eq_ix2 j⟩
  have ht : t.val < 500 := t.isLt
  have he : 2000 * t.val + p.val < 1000000 := by have := p.isLt; omega
  refine (pay1_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p q).trans ?_
  rw [View.read_apply, emb20 t p q ⟨2000 * t.val + p.val, he⟩ rfl]
  unfold Zarr
  rw [Z_ix2, iblk6_eq m c t, iblk7_eq m c t, iblk8_eq m c t, iblk9_eq m c t, iblk10_eq m c t, iblk11_eq m c t, iblk12_eq m c t, iblk13_eq m c t, iblk14_eq m c t, iblk15_eq m c t, iblk16_eq m c t, iblk17_eq m c t, iblk18_eq m c t, iblk19_eq m c t]
  exact Zat_rows _ _ _ _ _ _ _ _ _ _ _ _ _ _ _ _ _ _ _ _ _ _ _ _ _ _ p ⟨2000 * t.val + p.val, he⟩
    (fun k => iblk0_at m c t p k _ rfl) (fun k => iblk1_at m c t p k _ rfl) (iblk2_at m c t p 0 _ rfl) (iblk3_at m c t p 0 _ rfl)
    (fun k => iblk4_at m c t p k _ rfl) (fun k => iblk5_at m c t p k _ rfl) q

/-- An index of the result array is in point t's block iff each coordinate is in the block's range on its axis. -/
theorem mem_blk (t : Fin cfg0.N) (i : S1000000x64.Idx) :
    i ∈ ((cfg0.win 20).blk t).view.set ↔ ∀ a : Fin 2, win0_20.index t a * S2000x64.size a ≤ (i a).val ∧ (i a).val < win0_20.index t a * S2000x64.size a + S2000x64.size a := by
  show i ∈ ((View.whole main_v29).slice (win0_20.rect t)).set ↔ _
  rw [View.set_slice_whole, Rect.mem_set_unit]
  exact Iff.rfl

/-- Every row of the result lies in some point's block: row e in block e / 2000. -/
theorem cover (i : S1000000x64.Idx) : ∃ t : Fin cfg0.N, (cfg0.win 20).flush t = true ∧ i ∈ ((cfg0.win 20).blk t).view.set := by
  have hi0 : (i 0).val < 1000000 := (i 0).isLt
  have hi1 : (i 1).val < 64 := (i 1).isLt
  have hN : cfg0.N = 500 := N_0
  let t : Fin cfg0.N := ⟨(i 0).val / 2000, by rw [hN]; omega⟩
  obtain ⟨h0, h1⟩ := idx20 t
  refine ⟨t, flush0_20 t, ?_⟩
  rw [mem_blk]
  intro a
  match a with
  | ⟨0, _⟩ =>
    show win0_20.index t (0 : Fin 2) * 2000 ≤ (i 0).val ∧ (i 0).val < win0_20.index t (0 : Fin 2) * 2000 + 2000
    rw [h0]; show (i 0).val / 2000 * 2000 ≤ (i 0).val ∧ (i 0).val < (i 0).val / 2000 * 2000 + 2000; omega
  | ⟨1, _⟩ =>
    show win0_20.index t (1 : Fin 2) * 64 ≤ (i 1).val ∧ (i 1).val < win0_20.index t (1 : Fin 2) * 64 + 64
    rw [h1]; omega

/-- The result array after the region is the edge function of the operands as the region finds them. -/
theorem final20 (c : Dev nD) : (dats m 0 c).arrAt 20 cfg0.N = Zarr m c :=
  (dats m 0 c).arrAt_eq_of_cover 20 (Zarr m c) (fun t _ => flushed_eq m c t) (cover)

end Cert.KernelIdeal.Hand

end
-- ==== Proof.Glue.lean ====
/-
  The host lines around the kernel.

  Before the region the program gathers the endpoint rows ni = input[src], nj = input[tgt] (negative indices wrapped
  by the row count), stands the distances up as a column, compares them with the cutoff for the mask, cuts each
  [192, 64] weight into its three [64, 64] blocks and lays each bias down as a row. After it, the result z is
  scatter-added into the input at the source rows. `zOf` is the edge function of the arguments through those lines,
  `outOf` the program's result; both as functions of the seventeen argument arrays.
-/
import proofs.«143173_j62637803045231_1_alg».proof.Proof.Blocks
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.ValueIdx Cert.EdgeFn
open Idealize.SL.Sem Idealize.ShloMosaic.StableHlo

/-- An f32 array of shape `s` at the ideal instance. -/
abbrev Arr (s : Shape) : Type := s.Idx → Elt Ideal .f32

/-- A row index as the gather and the scatter read it: a negative one wrapped by the row count, then a column. -/
def wrapIdx (x : IVec S1000000 32) : IVec S1000000x1 32 :=
  broadcastInDim S1000000x1 ![0] bcast_S1000000_S1000000x1_0
    (select (cmpi .slt x (broadcastInDim S1000000 ![] bcast_S_S1000000 (constantI S_ 32 0#32)))
      (addi x (broadcastInDim S1000000 ![] bcast_S_S1000000 (constantI S_ 32 100000#32))) x)

/-- input[idx]: one row of the node table per edge. -/
def gatherRows (x0 : Arr S100000x64) (x : IVec S1000000 32) : Arr S1000000x64 :=
  Host.gather gather_S100000x64_S1000000x1_S1000000x64_1_0_n_n_0_1_164 x0 (wrapIdx x)

/-- The distances as a column. -/
def col (x3 : Arr S1000000) : Arr S1000000x1 := shapeCast S1000000x1 x3 shapeCasts_S1000000_S1000000x1

/-- The mask: 1 where the distance is below the cutoff, else 0. -/
def maskOf (x3 : Arr S1000000) (x6 : Arr S_) : Arr S1000000x1 :=
  uitofp (F := Ideal) .f32 (cmpf (F := Ideal) (φ := .f32) .olt (col x3 : FVec Ideal S1000000x1 .f32)
    (broadcastInDim S1000000x1 ![] bcast_S_S1000000x1 x6 : FVec Ideal S1000000x1 .f32))

/-- A bias as a row. -/
def row64 (x : Arr S64) : Arr S1x64 := shapeCast S1x64 x shapeCasts_S64_S1x64
def row27 (x : Arr S27) : Arr S1x27 := shapeCast S1x27 x shapeCasts_S27_S1x27

/-- The three [64, 64] blocks of a [192, 64] weight. -/
def blk0 (x : Arr S192x64) : Arr S64x64 := extractStridedSlice S64x64 ![0, 0] x slices_S192x64_S64x64_0_0
def blk1 (x : Arr S192x64) : Arr S64x64 := extractStridedSlice S64x64 ![64, 0] x slices_S192x64_S64x64_64_0
def blk2 (x : Arr S192x64) : Arr S64x64 := extractStridedSlice S64x64 ![128, 0] x slices_S192x64_S64x64_128_0

/-- The edge function of the arguments through the host lines before the kernel. -/
def zOf (x0 : Arr S100000x64) (x1 : IVec S1000000 32) (x2 : IVec S1000000 32) (x3 : Arr S1000000) (x4 : Arr S1000000x32) (x5 : Arr S1000000x27) (x6 : Arr S_) (x7 : Arr S192x64) (x8 : Arr S64) (x9 : Arr S192x64) (x10 : Arr S64) (x11 : Arr S32x64) (x12 : Arr S64) (x13 : Arr S27x27) (x14 : Arr S27) (x15 : Arr S27x64) (x16 : Arr S64) : Arr S1000000x64 :=
  Z (E := 1000000) (gatherRows x0 x1) (gatherRows x0 x2) (col x3) (maskOf x3 x6) x4 x5
    (blk0 x7) (blk1 x7) (blk2 x7) (row64 x8) (blk0 x9) (blk1 x9) (blk2 x9) (row64 x10)
    x11 (row64 x12) x13 (row27 x14) x15 (row64 x16)

/-- The program's result: z scatter-added into the input at the source rows. -/
def outOf (x0 : Arr S100000x64) (x1 : IVec S1000000 32) (x2 : IVec S1000000 32) (x3 : Arr S1000000) (x4 : Arr S1000000x32) (x5 : Arr S1000000x27) (x6 : Arr S_) (x7 : Arr S192x64) (x8 : Arr S64) (x9 : Arr S192x64) (x10 : Arr S64) (x11 : Arr S32x64) (x12 : Arr S64) (x13 : Arr S27x27) (x14 : Arr S27) (x15 : Arr S27x64) (x16 : Arr S64) : Arr S100000x64 :=
  Host.scatterAdd (F := Ideal) (φ := .f32) scatter_S100000x64_S1000000x1_S1000000x64_1_0_0_1 x0 (wrapIdx x1) (zOf x0 x1 x2 x3 x4 x5 x6 x7 x8 x9 x10 x11 x12 x13 x14 x15 x16)

variable (m : (ℓ : Loc nD τ sig) → Buf (Elt Ideal) ℓ)

/-! ## The arrays the region finds -/

set_option maxHeartbeats 2000000 in
theorem V_v6 (c : Dev nD) : (V m c main_v6 : Arr S1000000x64) = gatherRows (m ((c : Thread nD τ).loc main_arg0)) (m ((c : Thread nD τ).loc main_arg1)) := by
  show StableHlo.after hostOps0 (fun b => m (c, b)) (Proc.devRef .tc main_v6) = _
  after_results_simp <;> rfl

set_option maxHeartbeats 2000000 in
theorem V_v13 (c : Dev nD) : (V m c main_v13 : Arr S1000000x64) = gatherRows (m ((c : Thread nD τ).loc main_arg0)) (m ((c : Thread nD τ).loc main_arg2)) := by
  show StableHlo.after hostOps0 (fun b => m (c, b)) (Proc.devRef .tc main_v13) = _
  after_results_simp <;> rfl

set_option maxHeartbeats 2000000 in
theorem V_v14 (c : Dev nD) : (V m c main_v14 : Arr S1000000x1) = col (m ((c : Thread nD τ).loc main_arg3)) := by
  show StableHlo.after hostOps0 (fun b => m (c, b)) (Proc.devRef .tc main_v14) = _
  after_results_simp <;> rfl

set_option maxHeartbeats 2000000 in
theorem V_v17 (c : Dev nD) : (V m c main_v17 : Arr S1000000x1) = maskOf (m ((c : Thread nD τ).loc main_arg3)) (m ((c : Thread nD τ).loc main_arg6)) := by
  show StableHlo.after hostOps0 (fun b => m (c, b)) (Proc.devRef .tc main_v17) = _
  after_results_simp <;> rfl

set_option maxHeartbeats 2000000 in
theorem V_v18 (c : Dev nD) : (V m c main_v18 : Arr S64x64) = blk0 (m ((c : Thread nD τ).loc main_arg7)) := by
  show StableHlo.after hostOps0 (fun b => m (c, b)) (Proc.devRef .tc main_v18) = _
  after_results_simp <;> rfl

set_option maxHeartbeats 2000000 in
theorem V_v19 (c : Dev nD) : (V m c main_v19 : Arr S64x64) = blk1 (m ((c : Thread nD τ).loc main_arg7)) := by
  show StableHlo.after hostOps0 (fun b => m (c, b)) (Proc.devRef .tc main_v19) = _
  after_results_simp <;> rfl

set_option maxHeartbeats 2000000 in
theorem V_v20 (c : Dev nD) : (V m c main_v20 : Arr S64x64) = blk2 (m ((c : Thread nD τ).loc main_arg7)) := by
  show StableHlo.after hostOps0 (fun b => m (c, b)) (Proc.devRef .tc main_v20) = _
  after_results_simp <;> rfl

set_option maxHeartbeats 2000000 in
theorem V_v21 (c : Dev nD) : (V m c main_v21 : Arr S64x64) = blk0 (m ((c : Thread nD τ).loc main_arg9)) := by
  show StableHlo.after hostOps0 (fun b => m (c, b)) (Proc.devRef .tc main_v21) = _
  after_results_simp <;> rfl

set_option maxHeartbeats 2000000 in
theorem V_v22 (c : Dev nD) : (V m c main_v22 : Arr S64x64) = blk1 (m ((c : Thread nD τ).loc main_arg9)) := by
  show StableHlo.after hostOps0 (fun b => m (c, b)) (Proc.devRef .tc main_v22) = _
  after_results_simp <;> rfl

set_option maxHeartbeats 2000000 in
theorem V_v23 (c : Dev nD) : (V m c main_v23 : Arr S64x64) = blk2 (m ((c : Thread nD τ).loc main_arg9)) := by
  show StableHlo.after hostOps0 (fun b => m (c, b)) (Proc.devRef .tc main_v23) = _
  after_results_simp <;> rfl

set_option maxHeartbeats 2000000 in
theorem V_v24 (c : Dev nD) : (V m c main_v24 : Arr S1x64) = row64 (m ((c : Thread nD τ).loc main_arg8)) := by
  show StableHlo.after hostOps0 (fun b => m (c, b)) (Proc.devRef .tc main_v24) = _
  after_results_simp <;> rfl

set_option maxHeartbeats 2000000 in
theorem V_v25 (c : Dev nD) : (V m c main_v25 : Arr S1x64) = row64 (m ((c : Thread nD τ).loc main_arg10)) := by
  show StableHlo.after hostOps0 (fun b => m (c, b)) (Proc.devRef .tc main_v25) = _
  after_results_simp <;> rfl

set_option maxHeartbeats 2000000 in
theorem V_v26 (c : Dev nD) : (V m c main_v26 : Arr S1x64) = row64 (m ((c : Thread nD τ).loc main_arg12)) := by
  show StableHlo.after hostOps0 (fun b => m (c, b)) (Proc.devRef .tc main_v26) = _
  after_results_simp <;> rfl

set_option maxHeartbeats 2000000 in
theorem V_v27 (c : Dev nD) : (V m c main_v27 : Arr S1x27) = row27 (m ((c : Thread nD τ).loc main_arg14)) := by
  show StableHlo.after hostOps0 (fun b => m (c, b)) (Proc.devRef .tc main_v27) = _
  after_results_simp <;> rfl

set_option maxHeartbeats 2000000 in
theorem V_v28 (c : Dev nD) : (V m c main_v28 : Arr S1x64) = row64 (m ((c : Thread nD τ).loc main_arg16)) := by
  show StableHlo.after hostOps0 (fun b => m (c, b)) (Proc.devRef .tc main_v28) = _
  after_results_simp <;> rfl

/-- The result array after the region is the edge function of the arguments through the host lines. -/
theorem Zarr_eq (c : Dev nD) : Zarr m c = zOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  unfold Zarr zOf
  rw [V_v6, V_v13, V_v14, V_v17, V_v18, V_v19, V_v20, V_v21, V_v22, V_v23, V_v24, V_v25, V_v26, V_v27, V_v28,
    V_main_arg4 m c, V_main_arg5 m c, V_main_arg11 m c, V_main_arg13 m c, V_main_arg15 m c]

end Cert.KernelIdeal.Hand

end
-- ==== Proof.KernelRun.lean ====
/-
  The kernel program's run, read.

  After the region the program scatter-adds the result array into the input at the source rows. The region leaves
  the result array at the edge function of the arguments (Blocks, Glue), the other arrays as it found them; so the
  program ends with its result at `outOf` of the argument arrays, and the arguments unchanged.
-/
import proofs.«143173_j62637803045231_1_alg».proof.Proof.Glue

set_option maxRecDepth 16384

noncomputable section

namespace Cert.KernelIdeal.Hand

open Cert.KernelIdeal Cert.KernelIdeal.Gen Idealize.ShloMosaic Idealize.ShloMosaic.TcCoe Idealize.ShloMosaic.ValueIdx Cert.EdgeFn
open Idealize.SL.Sem Idealize.ShloMosaic.StableHlo

variable (m : (ℓ : Loc nD τ sig) → Buf (Elt Ideal) ℓ) (ρ : Dev nD → PrngReg)

set_option maxHeartbeats 2000000 in
/-- The lines after the region: the scatter-add of the region's result into the input. -/
theorem tail_eq (c : Dev nD) :
    (Pipeline.afterTail₀ cfgs (dats m) 0 (V0 m) [hostOps1] c main_v36 : Arr S100000x64) = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  unfold Pipeline.afterTail₀
  show StableHlo.after hostOps1 _ (Proc.devRef .tc main_v36) = _
  after_results
  have h29 : Pipeline.withArrays (cfgs 0).spec c (V0 m c) (fun w => (dats m 0 c).arrAt w (cfgs 0).N) (Proc.devRef .tc main_v29)
      = Zarr m c := (Pipeline.withArrays_arr spec0 launch0.win.arr_inj c _ _ 20).trans (final20 m c)
  have h0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans (V_main_arg0 m c)
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  rw [h29, h0, h1, Zarr_eq]
  rfl

/-- Every weakly fair execution of the kernel program terminates with its result at `outOf` of the argument arrays and
    the arguments unchanged. -/
theorem run : θ_run defs (onTc (τ := τ) (main (F := Ideal))) ⟨m, fun _ => 0, ρ⟩ (fun r => ∀ c : Dev nD,
      r.2.mem ((c.tc : Thread nD τ).loc main_v36) = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨((h c).2 main_v36 (Pipeline.mem_restRefs_of main_v36 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      ((h c).1 14).trans (((dats m 0 c).arrAt_in 14 rfl _).trans ((A_eq m c 14).trans (V_main_arg11 m c))),
      (((h c).2 main_arg12 (Pipeline.mem_restRefs_of main_arg12 (by decide) (by decide))).trans (W_main_arg12 m (dats m) c)),
      ((h c).1 16).trans (((dats m 0 c).arrAt_in 16 rfl _).trans ((A_eq m c 16).trans (V_main_arg13 m c))),
      (((h c).2 main_arg14 (Pipeline.mem_restRefs_of main_arg14 (by decide) (by decide))).trans (W_main_arg14 m (dats m) c)),
      ((h c).1 18).trans (((dats m 0 c).arrAt_in 18 rfl _).trans ((A_eq m c 18).trans (V_main_arg15 m c))),
      (((h c).2 main_arg16 (Pipeline.mem_restRefs_of main_arg16 (by decide) (by decide))).trans (W_main_arg16 m (dats m) c))⟩)
    (run_main m ρ)

end Cert.KernelIdeal.Hand

end
-- ==== Proof.LibSumThree.lean ====
/-
  A finite sum over n = a + b + c consecutive positions is the sum over the first a, plus the sum over the next b,
  plus the sum over the last c — in any commutative additive monoid, so also on the extended reals, where no
  finiteness is needed: only the grouping of the terms changes, never a product or a difference.
-/
import Mathlib.Algebra.BigOperators.Fin

open scoped BigOperators

namespace Cert.Lib

/-- The sum over `Fin (a + b + c)` by its three stretches, each position named by the stretch's own coordinate. -/
theorem sum_fin_add3 {M : Type*} [AddCommMonoid M] (a b c : ℕ) (f : Fin (a + b + c) → M) :
    ∑ i, f i = (∑ i : Fin a, f (Fin.castAdd c (Fin.castAdd b i)) + ∑ i : Fin b, f (Fin.castAdd c (Fin.natAdd a i)))
      + ∑ i : Fin c, f (Fin.natAdd (a + b) i) := by
  rw [Fin.sum_univ_add, Fin.sum_univ_add]

/-- The same with the positions written by their values: position `k` of the first stretch is `k`, of the second
    `a + k`, of the third `a + b + k`. -/
theorem sum_three_stretches {M : Type*} [AddCommMonoid M] {n : ℕ} (a b c : ℕ) (h : n = a + b + c) (g : Fin n → M) :
    ∑ k, g k = (∑ k : Fin a, g ⟨k.val, by omega⟩ + ∑ k : Fin b, g ⟨a + k.val, by omega⟩)
      + ∑ k : Fin c, g ⟨a + b + k.val, by omega⟩ := by
  subst h
  exact sum_fin_add3 a b c g

end Cert.Lib
-- ==== Proof.LibConcatCols.lean ====
/-
  Concatenations of matrices read at an entry.

  Side by side (along the columns): two blocks [a, n₁] | [a, n₂], and three blocks [a, n₁] | [a, n₂] | [a, n₃]; entry
  (p, j) of the result is entry (p, j − the widths before it) of the block whose span holds column j.
  One under another (along the rows): three blocks of [r₁, b], [r₂, b], [r₃, b] rows.
-/
import Idealize.ShloMosaic.Lib.Pipeline.Value
import Idealize.ShloMosaic.Lib.ValueIdx

namespace Cert.Lib

open Idealize.ShloMosaic Idealize.ShloMosaic.ValueIdx

variable {α : Type} {a n n₁ n₂ n₃ : Nat}

/-- Two blocks side by side, read in the left block. -/
theorem concat2_cols_left (x : (⟨2, ![a, n₁]⟩ : Shape).Idx → α) (y : (⟨2, ![a, n₂]⟩ : Shape).Idx → α)
    (h : Shape.Concatenates [⟨2, ![a, n₁]⟩, ⟨2, ![a, n₂]⟩] ⟨2, ![a, n]⟩ 1) (p : Fin a) (j : Fin n) (q : Fin n₁)
    (hq : q.val = j.val) :
    concatenate ⟨2, ![a, n]⟩ 1 [⟨⟨2, ![a, n₁]⟩, x⟩, ⟨⟨2, ![a, n₂]⟩, y⟩] h (ix2 p j) = x (ix2 p q) :=
  concatenate_apply_piece (t := ⟨2, ![a, n]⟩) 1 [⟨⟨2, ![a, n₁]⟩, x⟩, ⟨⟨2, ![a, n₂]⟩, y⟩] h (ix2 p j) 0 (by simp) _ x rfl rfl 0 rfl (ix2 p q)
    (fun b hb => by
      match b with
      | ⟨0, _⟩ => rfl
      | ⟨1, _⟩ => exact absurd rfl hb)
    (by show 0 + q.val = j.val; omega)

/-- Two blocks side by side, read in the right block. -/
theorem concat2_cols_right (x : (⟨2, ![a, n₁]⟩ : Shape).Idx → α) (y : (⟨2, ![a, n₂]⟩ : Shape).Idx → α)
    (h : Shape.Concatenates [⟨2, ![a, n₁]⟩, ⟨2, ![a, n₂]⟩] ⟨2, ![a, n]⟩ 1) (p : Fin a) (j : Fin n) (q : Fin n₂)
    (hq : n₁ + q.val = j.val) :
    concatenate ⟨2, ![a, n]⟩ 1 [⟨⟨2, ![a, n₁]⟩, x⟩, ⟨⟨2, ![a, n₂]⟩, y⟩] h (ix2 p j) = y (ix2 p q) :=
  concatenate_apply_piece (t := ⟨2, ![a, n]⟩) 1 [⟨⟨2, ![a, n₁]⟩, x⟩, ⟨⟨2, ![a, n₂]⟩, y⟩] h (ix2 p j) 1 (by simp) _ y rfl rfl n₁
    (by simp) (ix2 p q)
    (fun b hb => by
      match b with
      | ⟨0, _⟩ => rfl
      | ⟨1, _⟩ => exact absurd rfl hb)
    (by show n₁ + q.val = j.val; omega)

/-- Three blocks side by side, read in the first. -/
theorem concat3_cols_fst (x : (⟨2, ![a, n₁]⟩ : Shape).Idx → α) (y : (⟨2, ![a, n₂]⟩ : Shape).Idx → α) (z : (⟨2, ![a, n₃]⟩ : Shape).Idx → α)
    (h : Shape.Concatenates [⟨2, ![a, n₁]⟩, ⟨2, ![a, n₂]⟩, ⟨2, ![a, n₃]⟩] ⟨2, ![a, n]⟩ 1) (p : Fin a) (j : Fin n) (q : Fin n₁)
    (hq : q.val = j.val) :
    concatenate ⟨2, ![a, n]⟩ 1 [⟨⟨2, ![a, n₁]⟩, x⟩, ⟨⟨2, ![a, n₂]⟩, y⟩, ⟨⟨2, ![a, n₃]⟩, z⟩] h (ix2 p j) = x (ix2 p q) :=
  concatenate_apply_piece (t := ⟨2, ![a, n]⟩) 1 [⟨⟨2, ![a, n₁]⟩, x⟩, ⟨⟨2, ![a, n₂]⟩, y⟩, ⟨⟨2, ![a, n₃]⟩, z⟩] h (ix2 p j) 0 (by simp) _ x rfl rfl 0 rfl (ix2 p q)
    (fun b hb => by
      match b with
      | ⟨0, _⟩ => rfl
      | ⟨1, _⟩ => exact absurd rfl hb)
    (by show 0 + q.val = j.val; omega)

/-- Three blocks side by side, read in the second. -/
theorem concat3_cols_snd (x : (⟨2, ![a, n₁]⟩ : Shape).Idx → α) (y : (⟨2, ![a, n₂]⟩ : Shape).Idx → α) (z : (⟨2, ![a, n₃]⟩ : Shape).Idx → α)
    (h : Shape.Concatenates [⟨2, ![a, n₁]⟩, ⟨2, ![a, n₂]⟩, ⟨2, ![a, n₃]⟩] ⟨2, ![a, n]⟩ 1) (p : Fin a) (j : Fin n) (q : Fin n₂)
    (hq : n₁ + q.val = j.val) :
    concatenate ⟨2, ![a, n]⟩ 1 [⟨⟨2, ![a, n₁]⟩, x⟩, ⟨⟨2, ![a, n₂]⟩, y⟩, ⟨⟨2, ![a, n₃]⟩, z⟩] h (ix2 p j) = y (ix2 p q) :=
  concatenate_apply_piece (t := ⟨2, ![a, n]⟩) 1 [⟨⟨2, ![a, n₁]⟩, x⟩, ⟨⟨2, ![a, n₂]⟩, y⟩, ⟨⟨2, ![a, n₃]⟩, z⟩] h (ix2 p j) 1 (by simp) _ y rfl rfl n₁
    (by simp) (ix2 p q)
    (fun b hb => by
      match b with
      | ⟨0, _⟩ => rfl
      | ⟨1, _⟩ => exact absurd rfl hb)
    (by show n₁ + q.val = j.val; omega)

/-- Three blocks side by side, read in the third. -/
theorem concat3_cols_thd (x : (⟨2, ![a, n₁]⟩ : Shape).Idx → α) (y : (⟨2, ![a, n₂]⟩ : Shape).Idx → α) (z : (⟨2, ![a, n₃]⟩ : Shape).Idx → α)
    (h : Shape.Concatenates [⟨2, ![a, n₁]⟩, ⟨2, ![a, n₂]⟩, ⟨2, ![a, n₃]⟩] ⟨2, ![a, n]⟩ 1) (p : Fin a) (j : Fin n) (q : Fin n₃)
    (hq : n₁ + n₂ + q.val = j.val) :
    concatenate ⟨2, ![a, n]⟩ 1 [⟨⟨2, ![a, n₁]⟩, x⟩, ⟨⟨2, ![a, n₂]⟩, y⟩, ⟨⟨2, ![a, n₃]⟩, z⟩] h (ix2 p j) = z (ix2 p q) :=
  concatenate_apply_piece (t := ⟨2, ![a, n]⟩) 1 [⟨⟨2, ![a, n₁]⟩, x⟩, ⟨⟨2, ![a, n₂]⟩, y⟩, ⟨⟨2, ![a, n₃]⟩, z⟩] h (ix2 p j) 2 (by simp) _ z rfl rfl (n₁ + n₂)
    (by simp) (ix2 p q)
    (fun b hb => by
      match b with
      | ⟨0, _⟩ => rfl
      | ⟨1, _⟩ => exact absurd rfl hb)
    (by show n₁ + n₂ + q.val = j.val; omega)

variable {b r₁ r₂ r₃ : Nat}

/-- Three blocks one under another, read in block `k` (of one row each when the blocks are rows). -/
theorem concat3_rows_one (x y z : (⟨2, ![1, b]⟩ : Shape).Idx → α)
    (h : Shape.Concatenates [⟨2, ![1, b]⟩, ⟨2, ![1, b]⟩, ⟨2, ![1, b]⟩] ⟨2, ![3, b]⟩ 0) (k : Fin 3) (e : Fin b) :
    concatenate ⟨2, ![3, b]⟩ 0 [⟨⟨2, ![1, b]⟩, x⟩, ⟨⟨2, ![1, b]⟩, y⟩, ⟨⟨2, ![1, b]⟩, z⟩] h (ix2 k e)
      = (![x, y, z] k) (ix2 (0 : Fin 1) e) := by
  match k with
  | ⟨0, _⟩ =>
    exact concatenate_apply_piece (t := ⟨2, ![3, b]⟩) 0 [⟨⟨2, ![1, b]⟩, x⟩, ⟨⟨2, ![1, b]⟩, y⟩, ⟨⟨2, ![1, b]⟩, z⟩] h (ix2 _ e) 0 (by simp) _ x rfl rfl 0 rfl (ix2 0 e)
      (fun c hc => by
        match c with
        | ⟨0, _⟩ => exact absurd rfl hc
        | ⟨1, _⟩ => rfl) rfl
  | ⟨1, _⟩ =>
    exact concatenate_apply_piece (t := ⟨2, ![3, b]⟩) 0 [⟨⟨2, ![1, b]⟩, x⟩, ⟨⟨2, ![1, b]⟩, y⟩, ⟨⟨2, ![1, b]⟩, z⟩] h (ix2 _ e) 1 (by simp) _ y rfl rfl 1 (by simp) (ix2 0 e)
      (fun c hc => by
        match c with
        | ⟨0, _⟩ => exact absurd rfl hc
        | ⟨1, _⟩ => rfl) rfl
  | ⟨2, _⟩ =>
    exact concatenate_apply_piece (t := ⟨2, ![3, b]⟩) 0 [⟨⟨2, ![1, b]⟩, x⟩, ⟨⟨2, ![1, b]⟩, y⟩, ⟨⟨2, ![1, b]⟩, z⟩] h (ix2 _ e) 2 (by simp) _ z rfl rfl 2 (by simp) (ix2 0 e)
      (fun c hc => by
        match c with
        | ⟨0, _⟩ => exact absurd rfl hc
        | ⟨1, _⟩ => rfl) rfl

end Cert.Lib
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.RefSide.lean ====
/-
  The reference computes the same edge function.

  Read one operation at a time, the reference's product z is, at edge e and channel d, the edge function of the
  arguments through the same host lines as the kernel's (`zOf`): its one [192]-wide dot product of the concatenated
  row (ni, nj, (ni − nj)/r) with a [192, 64] weight is the sum of the three [64]-wide dot products with the weight's
  three row blocks — a sum over 192 positions split into its three stretches of 64, which needs only that addition of
  extended reals is commutative and associative —; its logistic written 1/(1 + e⁻ˣ) is the logistic function; its
  softplus is the kernel's with the exponent's sign written as a negation; its distance column and bias rows are
  broadcasts where the kernel reshapes. The scatter-add that follows is the same operation on both sides.
-/
import proofs.«143173_j62637803045231_1_alg».proof.Proof.Glue
import proofs.«143173_j62637803045231_1_alg».proof.Proof.Gen.ReferenceIdeal.Read
import proofs.«143173_j62637803045231_1_alg».proof.Proof.LibSumThree
import proofs.«143173_j62637803045231_1_alg».proof.Proof.LibConcatCols
import proofs.«143173_j62637803045231_1_alg».proof.Proof.LibColumnCast
import Idealize.ShloMosaic.Lib.ValueLayout

set_option maxRecDepth 16384

noncomputable section

open scoped BigOperators

namespace Cert.ReferenceIdeal.RefValue

open Cert.ReferenceIdeal Cert.ReferenceIdeal.Read Idealize.ShloMosaic Idealize.ShloMosaic.ValueIdx Cert.EdgeFn Cert.LibLogisticSoftplus

/-- An f32 array of shape `s` at the ideal instance. -/
abbrev Arr (s : Shape) : Type := s.Idx → Elt Ideal .f32

/-! ## Where the reference's index maps point, at an index written by its coordinates -/

theorem lidx_v22 (e : Fin 1000000) (d : Fin 64) (k : Fin 192) : lidx_main_v22 (ix2 e d) k = ix2 e k :=
  funext fun a => Fin.ext (by match a with | ⟨0, _⟩ => rfl | ⟨1, _⟩ => rfl)
theorem ridx_v22 (e : Fin 1000000) (d : Fin 64) (k : Fin 192) : ridx_main_v22 (ix2 e d) k = ix2 k d :=
  funext fun a => Fin.ext (by match a with | ⟨0, _⟩ => rfl | ⟨1, _⟩ => rfl)

theorem lidx_v32 (e : Fin 1000000) (d : Fin 64) (k : Fin 192) : lidx_main_v32 (ix2 e d) k = ix2 e k :=
  funext fun a => Fin.ext (by match a with | ⟨0, _⟩ => rfl | ⟨1, _⟩ => rfl)
theorem ridx_v32 (e : Fin 1000000) (d : Fin 64) (k : Fin 192) : ridx_main_v32 (ix2 e d) k = ix2 k d :=
  funext fun a => Fin.ext (by match a with | ⟨0, _⟩ => rfl | ⟨1, _⟩ => rfl)

theorem lidx_v37 (e : Fin 1000000) (d : Fin 64) (k : Fin 32) : lidx_main_v37 (ix2 e d) k = ix2 e k :=
  funext fun a => Fin.ext (by match a with | ⟨0, _⟩ => rfl | ⟨1, _⟩ => rfl)
theorem ridx_v37 (e : Fin 1000000) (d : Fin 64) (k : Fin 32) : ridx_main_v37 (ix2 e d) k = ix2 k d :=
  funext fun a => Fin.ext (by match a with | ⟨0, _⟩ => rfl | ⟨1, _⟩ => rfl)

theorem lidx_v41 (e : Fin 1000000) (d : Fin 27) (k : Fin 27) : lidx_main_v41 (ix2 e d) k = ix2 e k :=
  funext fun a => Fin.ext (by match a with | ⟨0, _⟩ => rfl | ⟨1, _⟩ => rfl)
theorem ridx_v41 (e : Fin 1000000) (d : Fin 27) (k : Fin 27) : ridx_main_v41 (ix2 e d) k = ix2 k d :=
  funext fun a => Fin.ext (by match a with | ⟨0, _⟩ => rfl | ⟨1, _⟩ => rfl)

theorem lidx_v52 (e : Fin 1000000) (d : Fin 64) (k : Fin 27) : lidx_main_v52 (ix2 e d) k = ix2 e k :=
  funext fun a => Fin.ext (by match a with | ⟨0, _⟩ => rfl | ⟨1, _⟩ => rfl)
theorem ridx_v52 (e : Fin 1000000) (d : Fin 64) (k : Fin 27) : ridx_main_v52 (ix2 e d) k = ix2 k d :=
  funext fun a => Fin.ext (by match a with | ⟨0, _⟩ => rfl | ⟨1, _⟩ => rfl)

/-! ## Bias rows, the distance column, the mask -/

theorem bias24 (x8 : Arr S64) (e : Fin 1000000) (d : Fin 64) :
    val_main_v24 (F := Ideal) x8 (ix2 e d) = Cert.KernelIdeal.Hand.row64 x8 (ix2 (0 : Fin 1) d) := by
  rw [val_main_v24_apply, val_main_v23_apply]
  unfold Cert.KernelIdeal.Hand.row64
  rw [shapeCast_a_1a_apply]
  exact congrArg x8 (funext fun a => Fin.ext (by match a with | ⟨0, _⟩ => rfl))

theorem bias34 (x10 : Arr S64) (e : Fin 1000000) (d : Fin 64) :
    val_main_v34 (F := Ideal) x10 (ix2 e d) = Cert.KernelIdeal.Hand.row64 x10 (ix2 (0 : Fin 1) d) := by
  rw [val_main_v34_apply, val_main_v33_apply]
  unfold Cert.KernelIdeal.Hand.row64
  rw [shapeCast_a_1a_apply]
  exact congrArg x10 (funext fun a => Fin.ext (by match a with | ⟨0, _⟩ => rfl))

theorem bias39 (x12 : Arr S64) (e : Fin 1000000) (d : Fin 64) :
    val_main_v39 (F := Ideal) x12 (ix2 e d) = Cert.KernelIdeal.Hand.row64 x12 (ix2 (0 : Fin 1) d) := by
  rw [val_main_v39_apply, val_main_v38_apply]
  unfold Cert.KernelIdeal.Hand.row64
  rw [shapeCast_a_1a_apply]
  exact congrArg x12 (funext fun a => Fin.ext (by match a with | ⟨0, _⟩ => rfl))

theorem bias43 (x14 : Arr S27) (e : Fin 1000000) (d : Fin 27) :
    val_main_v43 (F := Ideal) x14 (ix2 e d) = Cert.KernelIdeal.Hand.row27 x14 (ix2 (0 : Fin 1) d) := by
  rw [val_main_v43_apply, val_main_v42_apply]
  unfold Cert.KernelIdeal.Hand.row27
  rw [shapeCast_a_1a_apply]
  exact congrArg x14 (funext fun a => Fin.ext (by match a with | ⟨0, _⟩ => rfl))

theorem bias54 (x16 : Arr S64) (e : Fin 1000000) (d : Fin 64) :
    val_main_v54 (F := Ideal) x16 (ix2 e d) = Cert.KernelIdeal.Hand.row64 x16 (ix2 (0 : Fin 1) d) := by
  rw [val_main_v54_apply, val_main_v53_apply]
  unfold Cert.KernelIdeal.Hand.row64
  rw [shapeCast_a_1a_apply]
  exact congrArg x16 (funext fun a => Fin.ext (by match a with | ⟨0, _⟩ => rfl))

/-- The distance column: a broadcast along a new unit axis is the reshape. -/
theorem col14 (x3 : Arr S1000000) (e : Fin 1000000) (u : Fin 1) :
    val_main_v14 (F := Ideal) x3 (ix2 e u) = Cert.KernelIdeal.Hand.col x3 (ix2 e (0 : Fin 1)) := by
  rw [val_main_v14_apply]
  unfold Cert.KernelIdeal.Hand.col
  rw [Cert.LibColumnCast.shapeCast_a_a1_apply]
  exact congrArg x3 (funext fun a => Fin.ext (by match a with | ⟨0, _⟩ => rfl))

theorem col14_eq (x3 : Arr S1000000) : val_main_v14 (F := Ideal) x3 = Cert.KernelIdeal.Hand.col x3 := by
  funext i
  obtain ⟨e, u, rfl⟩ : ∃ (e : Fin 1000000) (u : Fin 1), i = ix2 e u := ⟨i 0, i 1, eq_ix2 i⟩
  have hu : u = 0 := Fin.ext (by omega)
  subst hu
  exact col14 x3 e 0

/-- The mask column is the kernel's. -/
theorem mask17_eq (x3 : Arr S1000000) (x6 : Arr S_) : val_main_v17 (F := Ideal) x3 x6 = Cert.KernelIdeal.Hand.maskOf x3 x6 := by
  unfold val_main_v17 val_main_v16 Cert.KernelIdeal.Hand.maskOf
  rw [col14_eq]
  rfl

/-- The mask broadcast along the channels. -/
theorem mask59 (x3 : Arr S1000000) (x6 : Arr S_) (e : Fin 1000000) (d : Fin 64) :
    val_main_v59 (F := Ideal) x3 x6 (ix2 e d) = Cert.KernelIdeal.Hand.maskOf x3 x6 (ix2 e (0 : Fin 1)) := by
  rw [val_main_v59_apply, mask17_eq]
  exact congrArg (Cert.KernelIdeal.Hand.maskOf x3 x6) (funext fun a => Fin.ext (by match a with | ⟨0, _⟩ => rfl | ⟨1, _⟩ => rfl))

/-! ## The stages of the reference, read at edge e -/

section Stages

variable (x0 : Arr S100000x64) (x1 x2 : IVec S1000000 32) (x3 : Arr S1000000)

/-- The gathered rows are the kernel's. -/
theorem ni_eq : val_main_v6 (F := Ideal) x0 x1 = Cert.KernelIdeal.Hand.gatherRows x0 x1 := rfl
theorem nj_eq : val_main_v13 (F := Ideal) x0 x2 = Cert.KernelIdeal.Hand.gatherRows x0 x2 := rfl

/-- The dot product of the concatenated row (ni, nj, (ni − nj)/r) with a [192, 64] weight is the sum of the three
    dot products with the weight's three blocks of 64 rows. -/
theorem fe_dot (W : Arr S192x64) (e : Fin 1000000) (d : Fin 64) :
    ∑ k : Fin 192, val_main_v21 (F := Ideal) x0 x1 x2 x3 (ix2 e k) * W (ix2 k d)
      = (∑ k : Fin 64, val_main_v6 (F := Ideal) x0 x1 (ix2 e k) * Cert.KernelIdeal.Hand.blk0 W (ix2 k d)
          + ∑ k : Fin 64, val_main_v13 (F := Ideal) x0 x2 (ix2 e k) * Cert.KernelIdeal.Hand.blk1 W (ix2 k d))
        + ∑ k : Fin 64, Ideal.div (val_main_v6 (F := Ideal) x0 x1 (ix2 e k) - val_main_v13 (F := Ideal) x0 x2 (ix2 e k))
            (Cert.KernelIdeal.Hand.col x3 (ix2 e (0 : Fin 1))) * Cert.KernelIdeal.Hand.blk2 W (ix2 k d) := by
  rw [Cert.Lib.sum_three_stretches 64 64 64 (by norm_num)
    (fun k : Fin 192 => val_main_v21 (F := Ideal) x0 x1 x2 x3 (ix2 e k) * W (ix2 k d))]
  refine congrArg₂ (· + ·) (congrArg₂ (· + ·) (Finset.sum_congr rfl fun k _ => ?_) (Finset.sum_congr rfl fun k _ => ?_))
    (Finset.sum_congr rfl fun k _ => ?_)
  · have hk : k.val < 192 := by have := k.isLt; omega
    show val_main_v21 (F := Ideal) x0 x1 x2 x3 (ix2 e ⟨k.val, hk⟩) * W (ix2 ⟨k.val, hk⟩ d) = _
    refine congrArg₂ (· * ·) ?_ ?_
    · unfold val_main_v21
      exact Cert.Lib.concat3_cols_fst _ _ _ _ e ⟨k.val, hk⟩ k rfl
    · unfold Cert.KernelIdeal.Hand.blk0
      exact (slice2_axis0_apply 0 W _ k d ⟨k.val, hk⟩ (by simp)).symm
  · have hk : 64 + k.val < 192 := by have := k.isLt; omega
    show val_main_v21 (F := Ideal) x0 x1 x2 x3 (ix2 e ⟨64 + k.val, hk⟩) * W (ix2 ⟨64 + k.val, hk⟩ d) = _
    refine congrArg₂ (· * ·) ?_ ?_
    · unfold val_main_v21
      exact Cert.Lib.concat3_cols_snd _ _ _ _ e ⟨64 + k.val, hk⟩ k rfl
    · unfold Cert.KernelIdeal.Hand.blk1
      exact (slice2_axis0_apply 64 W _ k d ⟨64 + k.val, hk⟩ rfl).symm
  · have hk : 64 + 64 + k.val < 192 := by have := k.isLt; omega
    show val_main_v21 (F := Ideal) x0 x1 x2 x3 (ix2 e ⟨64 + 64 + k.val, hk⟩) * W (ix2 ⟨64 + 64 + k.val, hk⟩ d) = _
    refine congrArg₂ (· * ·) ?_ ?_
    · unfold val_main_v21
      rw [Cert.Lib.concat3_cols_thd _ _ _ _ e ⟨64 + 64 + k.val, hk⟩ k rfl]
      show Ideal.div (val_main_v6 (F := Ideal) x0 x1 (ix2 e k) - val_main_v13 (F := Ideal) x0 x2 (ix2 e k))
        (val_main_v19 (F := Ideal) x3 (ix2 e k)) = _
      refine congrArg (Ideal.div _) ?_
      rw [val_main_v19_apply]
      exact (congrArg (val_main_v14 (F := Ideal) x3)
        (funext fun a => Fin.ext (by match a with | ⟨0, _⟩ => rfl | ⟨1, _⟩ => rfl))).trans (col14 x3 e 0)
    · unfold Cert.KernelIdeal.Hand.blk2
      exact (slice2_axis0_apply 128 W _ k d ⟨64 + 64 + k.val, hk⟩ (by show 64 + 64 + k.val = 128 + k.val; omega)).symm

/-- The gate layer's pre-activation. -/
theorem gatePre25 (x7 : Arr S192x64) (x8 : Arr S64) (e : Fin 1000000) (d : Fin 64) :
    val_main_v25 (F := Ideal) x0 x1 x2 x3 x7 x8 (ix2 e d)
      = pre3 (val_main_v6 (F := Ideal) x0 x1) (val_main_v13 (F := Ideal) x0 x2) (Cert.KernelIdeal.Hand.col x3)
          (Cert.KernelIdeal.Hand.blk0 x7) (Cert.KernelIdeal.Hand.blk1 x7) (Cert.KernelIdeal.Hand.blk2 x7) (Cert.KernelIdeal.Hand.row64 x8) e d := by
  rw [val_main_v25_apply, val_main_v22_apply, bias24]
  simp only [lidx_v22, ridx_v22]
  rw [fe_dot]
  rfl

/-- The second layer's pre-activation. -/
theorem mlpPre35 (x9 : Arr S192x64) (x10 : Arr S64) (e : Fin 1000000) (d : Fin 64) :
    val_main_v35 (F := Ideal) x0 x1 x2 x3 x9 x10 (ix2 e d)
      = pre3 (val_main_v6 (F := Ideal) x0 x1) (val_main_v13 (F := Ideal) x0 x2) (Cert.KernelIdeal.Hand.col x3)
          (Cert.KernelIdeal.Hand.blk0 x9) (Cert.KernelIdeal.Hand.blk1 x9) (Cert.KernelIdeal.Hand.blk2 x9) (Cert.KernelIdeal.Hand.row64 x10) e d := by
  rw [val_main_v35_apply, val_main_v32_apply, bias34]
  simp only [lidx_v32, ridx_v32]
  rw [fe_dot]
  rfl

/-- 1 / (1 + e⁻ˣ) is the logistic function. -/
theorem sig31 (x7 : Arr S192x64) (x8 : Arr S64) (i : S1000000x64.Idx) :
    val_main_v31 (F := Ideal) x0 x1 x2 x3 x7 x8 i = Ideal.logistic (val_main_v25 (F := Ideal) x0 x1 x2 x3 x7 x8 i) := by
  rw [val_main_v31_apply, val_main_v30_apply, val_main_v29_apply, val_main_v28_apply]
  exact logistic_eq (val_main_v25 (F := Ideal) x0 x1 x2 x3 x7 x8 i)

/-- The reference's softplus is the kernel's. -/
theorem softplus36 (x9 : Arr S192x64) (x10 : Arr S64) (i : S1000000x64.Idx) :
    val_main_v36 (F := Ideal) x0 x1 x2 x3 x9 x10 i = softplusK (val_main_v35 (F := Ideal) x0 x1 x2 x3 x9 x10 i) := by
  rw [← softplusH_eq, val_main_v36_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply]
  rfl

end Stages

/-- z₁. -/
theorem z1_40 (x4 : Arr S1000000x32) (x11 : Arr S32x64) (x12 : Arr S64) (e : Fin 1000000) (d : Fin 64) :
    val_main_v40 (F := Ideal) x4 x11 x12 (ix2 e d) = lin1 x4 x11 (Cert.KernelIdeal.Hand.row64 x12) e d := by
  rw [val_main_v40_apply, val_main_v37_apply, bias39]
  simp only [lidx_v37, ridx_v37]
  rfl

/-- The plane-wave gate. -/
theorem gate50 (x5 : Arr S1000000x27) (x13 : Arr S27x27) (x14 : Arr S27) (e : Fin 1000000) (j : Fin 27) :
    val_main_v50 (F := Ideal) x5 x13 x14 (ix2 e j) = gate2 x5 x13 (Cert.KernelIdeal.Hand.row27 x14) e j := by
  rw [val_main_v50_apply, val_main_v49_apply, val_main_v48_apply, val_main_v47_apply]
  refine (logistic_eq (val_main_v44 (F := Ideal) x5 x13 x14 (ix2 e j))).trans ?_
  unfold gate2
  refine congrArg Ideal.logistic ?_
  rw [val_main_v44_apply, val_main_v41_apply, bias43]
  simp only [lidx_v41, ridx_v41]
  rfl

/-- z₂. -/
theorem z2_55 (x5 : Arr S1000000x27) (x13 : Arr S27x27) (x14 : Arr S27) (x15 : Arr S27x64) (x16 : Arr S64)
    (e : Fin 1000000) (d : Fin 64) :
    val_main_v55 (F := Ideal) x5 x13 x14 x15 x16 (ix2 e d) = lin2 x5 x13 (Cert.KernelIdeal.Hand.row27 x14) x15 (Cert.KernelIdeal.Hand.row64 x16) e d := by
  rw [val_main_v55_apply, val_main_v52_apply, bias54]
  simp only [lidx_v52, ridx_v52, val_main_v51_apply, gate50]
  rfl

/-! ## The whole reference -/

/-- The reference's z is the edge function of the arguments through the kernel's host lines. -/
theorem z60 (x0 : Arr S100000x64) (x1 x2 : IVec S1000000 32) (x3 : Arr S1000000) (x4 : Arr S1000000x32) (x5 : Arr S1000000x27)
    (x6 : Arr S_) (x7 : Arr S192x64) (x8 : Arr S64) (x9 : Arr S192x64) (x10 : Arr S64) (x11 : Arr S32x64) (x12 : Arr S64)
    (x13 : Arr S27x27) (x14 : Arr S27) (x15 : Arr S27x64) (x16 : Arr S64) :
    val_main_v60 (F := Ideal) x0 x1 x2 x3 x4 x5 x6 x7 x8 x9 x10 x11 x12 x13 x14 x15 x16 = Cert.KernelIdeal.Hand.zOf x0 x1 x2 x3 x4 x5 x6 x7 x8 x9 x10 x11 x12 x13 x14 x15 x16 := by
  funext i
  obtain ⟨e, d, rfl⟩ : ∃ (e : Fin 1000000) (d : Fin 64), i = ix2 e d := ⟨i 0, i 1, eq_ix2 i⟩
  rw [val_main_v60_apply, val_main_v58_apply, val_main_v56_apply, val_main_v57_apply, sig31, softplus36, gatePre25,
    mlpPre35, z1_40, z2_55, mask59, ni_eq, nj_eq]
  rfl

/-- The reference's result is the kernel program's function of the arguments. -/
theorem out67 (x0 : Arr S100000x64) (x1 x2 : IVec S1000000 32) (x3 : Arr S1000000) (x4 : Arr S1000000x32) (x5 : Arr S1000000x27)
    (x6 : Arr S_) (x7 : Arr S192x64) (x8 : Arr S64) (x9 : Arr S192x64) (x10 : Arr S64) (x11 : Arr S32x64) (x12 : Arr S64)
    (x13 : Arr S27x27) (x14 : Arr S27) (x15 : Arr S27x64) (x16 : Arr S64) :
    val_main_v67 (F := Ideal) x0 x1 x2 x3 x4 x5 x6 x7 x8 x9 x10 x11 x12 x13 x14 x15 x16 = Cert.KernelIdeal.Hand.outOf x0 x1 x2 x3 x4 x5 x6 x7 x8 x9 x10 x11 x12 x13 x14 x15 x16 := by
  unfold val_main_v67 Cert.KernelIdeal.Hand.outOf
  rw [z60]
  rfl

end Cert.ReferenceIdeal.RefValue

end
-- ==== Proof.lean ====
/-
  Kernel: a gated edge MLP over 1,000,000 edges of a 100,000-node graph. For each edge the endpoint feature rows
  ni = input[src], nj = input[tgt] are gathered; the kernel computes, 2000 edges per grid point,

      z = σ(ni·Wg₁ + nj·Wg₂ + δ·Wg₃ + bg) · softplus(ni·Wm₁ + nj·Wm₂ + δ·Wm₃ + bm)
            · ((cs·W₁ + b₁) + ((pw ⊙ σ(pw·W2g + b2g))·W₂ + b₂)) · [r < cutoff],      δ = (ni − nj)/r,

  with Wg₁, Wg₂, Wg₃ the three 64-row blocks of Wg (and the same for Wm); z is then scatter-added into the input at
  the source rows. The reference computes the same with ONE dot product of the concatenated row (ni, nj, δ) against the
  whole [192, 64] weight, the logistic written 1/(1 + e⁻ˣ), and broadcasts where the kernel reshapes.

  Over the extended reals the two results are equal entry by entry: a sum over 192 positions is the sum of its three
  stretches of 64 (addition is commutative and associative; nothing is distributed or cancelled, so finiteness of the
  inputs is never used); the logistic function is 1/(1 + e⁻ˣ) at every extended real by definition; the two softplus
  spellings differ by 0 − y = −y; the changes of float format are the identity. The modules: EdgeFn (the edge
  function and its row-locality), Payload (the kernel body's arithmetic is the edge function of its blocks), Blocks
  (the 500 blocks written back tile the result array), Glue and KernelRun (the host lines around the kernel), RefSide
  (the reference, one operation at a time, is the same function). The ideal pass rewrote nothing, so `preserves`
  is trivial; the three frames are the generated frame proofs and the reference's generated run.
-/
import proofs.«143173_j62637803045231_1_alg».proof.Defs
import proofs.«143173_j62637803045231_1_alg».proof.Proof.Gen.Kernel
import proofs.«143173_j62637803045231_1_alg».proof.Proof.Gen.Kernel.Skeleton
import proofs.«143173_j62637803045231_1_alg».proof.Proof.Gen.Kernel.Launch
import proofs.«143173_j62637803045231_1_alg».proof.Proof.Gen.Kernel.Points
import proofs.«143173_j62637803045231_1_alg».proof.Proof.Gen.Kernel.Frame
import proofs.«143173_j62637803045231_1_alg».proof.Proof.Gen.KernelIdeal
import proofs.«143173_j62637803045231_1_alg».proof.Proof.Gen.KernelIdeal.Skeleton
import proofs.«143173_j62637803045231_1_alg».proof.Proof.Gen.KernelIdeal.Launch
import proofs.«143173_j62637803045231_1_alg».proof.Proof.Gen.KernelIdeal.Points
import proofs.«143173_j62637803045231_1_alg».proof.Proof.Gen.KernelIdeal.Frame
import proofs.«143173_j62637803045231_1_alg».proof.Proof.Gen.ReferenceIdeal
import proofs.«143173_j62637803045231_1_alg».proof.Proof.Gen.Pre_finite_inputs
import proofs.«143173_j62637803045231_1_alg».proof.Proof.Gen.ReferenceIdeal.Run
import proofs.«143173_j62637803045231_1_alg».proof.Proof.Gen.ReferenceIdeal.Read
import proofs.«143173_j62637803045231_1_alg».proof.Proof.KernelRun
import proofs.«143173_j62637803045231_1_alg».proof.Proof.RefSide
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the input plus the scatter-added edge function of the arguments. -/
theorem algebraic : Cert.algebraic_KernelIdeal_ReferenceIdeal := by
  intro m ρ m' ρ' _ hagree
  refine ⟨fun c => Cert.KernelIdeal.Hand.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16⟩ := hagree c
  rw [Cert.ReferenceIdeal.Read.val_main_v67_eq, a0, a1, a2, a3, a4, a5, a6, a7, a8, a9, a10, a11, a12, a13, a14, a15, a16]
  exact Cert.ReferenceIdeal.RefValue.out67 _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
